-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S8192x1024 : Shape := ⟨2, ![8192, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 36
  | .vmem => 30
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .bf16⟩
  | .hbm, ⟨25, _⟩ => ⟨S4x2048x1024, .bf16⟩
  | .hbm, ⟨26, _⟩ => ⟨S8192x1024, .f32⟩
  | .hbm, ⟨27, _⟩ => ⟨S8192x1024, .bf16⟩
  | .hbm, ⟨28, _⟩ => ⟨S4x2048x1024, .bf16⟩
  | .hbm, ⟨29, _⟩ => ⟨S8192x1024, .f32⟩
  | .hbm, ⟨30, _⟩ => ⟨S8192x1024, .bf16⟩
  | .hbm, ⟨31, _⟩ => ⟨S4x2048x1024, .bf16⟩
  | .hbm, ⟨32, _⟩ => ⟨S4x2048x1024, .bf16⟩
  | .hbm, ⟨33, _⟩ => ⟨S8192x1024, .bf16⟩
  | .hbm, ⟨34, _⟩ => ⟨S8192x1024, .f32⟩
  | .hbm, ⟨35, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x512x128, .bf16⟩
  | .local _ .vmem, ⟨19, _⟩ => ⟨S1x512x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x512x128, .bf16⟩
  | .local _ .vmem, ⟨23, _⟩ => ⟨S1x512x128, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1x1024, .f32⟩
  | .local _ .vmem, ⟨28, _⟩ => ⟨S1024x1024, .f32⟩
  | .local _ .vmem, ⟨29, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 8, 4], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 1 → Memref sig .tc .vmem S1x2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true, false]

abbrev stage3_2 : Fin 1 → Memref sig .tc .vmem S1x2048x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev stage3_3 : Fin 2 → Memref sig .tc .vmem S1x512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  dot_S1024x1024_S1024x1024_S1024x1024_1_0_0_1_n_n_wf : DotDims.WF S1024x1024 S1024x1024 S1024x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x128.size a ≤ S4x2048x1024.size a
  hwx3_0 : ∀ i : grid3.Coords, EltTy.bits .bf16 = 32 ∨ (Rect.block (s := S4x2048x1024) S1x512x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S4x2048x1024.size a
  hwx3_1 : ∀ i : grid3.Coords, EltTy.bits .bf16 = 32 ∨ (Rect.block (s := S4x2048x1024) S1x2048x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S4x2048x1024.size a
  hwx3_2 : ∀ i : grid3.Coords, EltTy.bits .bf16 = 32 ∨ (Rect.block (s := S4x2048x1024) S1x2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x128.size a ≤ S4x2048x1024.size a
  hwx3_3 : ∀ i : grid3.Coords, EltTy.bits .bf16 = 32 ∨ (Rect.block (s := S4x2048x1024) S1x512x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S8192x1024.size a
  hwx4_3 : ∀ i : grid4.Coords, EltTy.bits .f32 = 32 ∨ (Rect.block (s := S8192x1024) S1024x1024.size (cc4_transform_3 i) (hinb4_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S1x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1x2048x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x2048x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v22) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x2048x64, .f32⟩
  | .hbm, ⟨48, _⟩ => ⟨S4x2048x16x64, .f32⟩
  | .hbm, ⟨49, _⟩ => ⟨S4x2048x1024, .f32⟩
  | .hbm, ⟨50, _⟩ => ⟨S4x2048x1024, .f32⟩
  | .hbm, ⟨51, _⟩ => ⟨S1x1x1024, .f32⟩
  | .hbm, ⟨52, _⟩ => ⟨S4x2048x1024, .f32⟩
  | .hbm, ⟨53, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KRun.lean ====
/-
  The idealized kernel's run with its result named.

  @main is eleven segments: six stretches of host operations and five pipelined regions between them. The buffer
  contents at each boundary are a fold from the launch memory (W0 … W11 of the generated frame module): a stretch of
  host operations applies them, a region replaces its arrays by what its write-backs leave. Every weakly fair
  execution terminates, nothing faulting, with every unscoped buffer of a core at the last boundary's contents W11;
  in particular the result array is W11 at its buffer, and each argument array is as launched.
-/
import proofs.«152555_j79791902425338_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v24) = W11 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v24 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.RunValue

end
-- ==== Proof.Spec.lean ====
/-
  Multi-head attention with its four dense projections, as plain functions on the extended reals.

  Shapes: activations are [4, 2048, 1024] (batch, position, feature), weights [1024, 1024] (out, in), biases [1024].
  The 1024 features are 16 heads of 64 lanes: feature e belongs to head e / 64 and is lane e % 64 of it, and lane d of
  head h is feature 64 h + d.

    dense x W b (n, s, e)   = ∑ d, x (n, s, d) * W (e, d) + b e                       (x · Wᵀ + b)
    logit qr k t            = (∑ d, qr d * k t d) * (1/8)                             (one query row against key row t)
    attendRow qr k v d      = ∑ t, (exp (logit t - sup logit) / ∑ t', exp (logit t' - sup logit)) * v t d
    heads Q K V (n, s, e)   = attendRow of head e/64's lanes of Q's row s against K's and V's rows, at lane e%64
    mha …                   = dense (heads (dense q Wq bq) (dense k Wk bk) (dense v Wv bv)) Wo bo

  The scale 1/8 is kept as the float word 0x3E000000 read at the ideal values: it is the same word wherever it occurs
  and is never evaluated. The maximum over key rows is a supremum, so no order of evaluation and no finiteness enters.
-/
import Idealize.ShloMosaic.PureOps.Ideal
import Idealize.ShloMosaic.Lib.ValueIdx

noncomputable section

namespace Mha

open Idealize.ShloMosaic Idealize.ShloMosaic.ValueIdx

/-- Activations: batch × position × feature. -/
abbrev SX : Shape := ⟨3, ![4, 2048, 1024]⟩
/-- A weight matrix: output feature × input feature. -/
abbrev SW : Shape := ⟨2, ![1024, 1024]⟩
/-- A bias vector. -/
abbrev SB : Shape := ⟨1, ![1024]⟩

/-- The scale 1/√64 = 1/8, as its float word read at the ideal values. -/
abbrev eighth : EReal := Ideal.ofBits .f32 0x3E000000#32

/-- Lane d of head h is feature 64 h + d. -/
def feat (h : Fin 16) (d : Fin 64) : Fin 1024 := ⟨64 * h.val + d.val, by omega⟩

/-- The head a feature belongs to. -/
def headOf (e : Fin 1024) : Fin 16 := ⟨e.val / 64, by omega⟩

/-- A feature's lane within its head. -/
def laneOf (e : Fin 1024) : Fin 64 := ⟨e.val % 64, Nat.mod_lt _ (by norm_num)⟩

theorem feat_headOf_laneOf (e : Fin 1024) : feat (headOf e) (laneOf e) = e :=
  Fin.ext (by show 64 * (e.val / 64) + e.val % 64 = e.val; omega)

/-- x · Wᵀ + b at batch n, position s, output feature e. -/
def denseAt (x : SX.Idx → EReal) (W : SW.Idx → EReal) (b : SB.Idx → EReal) (n : Fin 4) (s : Fin 2048) (e : Fin 1024) : EReal :=
  ∑ d : Fin 1024, x (ix3 n s d) * W (ix2 e d) + b (ix1 e)

/-- x · Wᵀ + b as an array. -/
def dense (x : SX.Idx → EReal) (W : SW.Idx → EReal) (b : SB.Idx → EReal) : SX.Idx → EReal :=
  fun i => denseAt x W b (i 0) (i 1) (i 2)

theorem dense_apply (x : SX.Idx → EReal) (W : SW.Idx → EReal) (b : SB.Idx → EReal) (n : Fin 4) (s : Fin 2048) (e : Fin 1024) :
    dense x W b (ix3 n s e) = denseAt x W b n s e := rfl

/-- The scaled logit of one query row against key row t. -/
def logit {N : ℕ} (qr : Fin 64 → EReal) (k : Fin N → Fin 64 → EReal) (t : Fin N) : EReal :=
  (∑ d : Fin 64, qr d * k t d) * eighth

/-- The largest logit of the row. -/
def top {N : ℕ} (qr : Fin 64 → EReal) (k : Fin N → Fin 64 → EReal) : EReal := ⨆ t : Fin N, logit qr k t

/-- The shifted exponential of the logit against key row t. -/
def expo {N : ℕ} (qr : Fin 64 → EReal) (k : Fin N → Fin 64 → EReal) (t : Fin N) : EReal :=
  Ideal.exp (logit qr k t - top qr k)

/-- The softmax weight of key row t. -/
def weight {N : ℕ} (qr : Fin 64 → EReal) (k : Fin N → Fin 64 → EReal) (t : Fin N) : EReal :=
  Ideal.div (expo qr k t) (∑ t' : Fin N, expo qr k t')

/-- One query row attending to N key/value rows, at lane d. -/
def attendRow {N : ℕ} (qr : Fin 64 → EReal) (k v : Fin N → Fin 64 → EReal) (d : Fin 64) : EReal :=
  ∑ t : Fin N, weight qr k t * v t d

/-- Head h of batch n: position s of Q attends to all positions of K and V; lane d of the result. -/
def headsAt (Q K V : SX.Idx → EReal) (n : Fin 4) (s : Fin 2048) (h : Fin 16) (d : Fin 64) : EReal :=
  attendRow (fun d' => Q (ix3 n s (feat h d'))) (fun t d' => K (ix3 n t (feat h d'))) (fun t d' => V (ix3 n t (feat h d'))) d

/-- All heads side by side in the feature axis. -/
def heads (Q K V : SX.Idx → EReal) : SX.Idx → EReal :=
  fun i => headsAt Q K V (i 0) (i 1) (headOf (i 2)) (laneOf (i 2))

theorem heads_apply (Q K V : SX.Idx → EReal) (n : Fin 4) (s : Fin 2048) (e : Fin 1024) :
    heads Q K V (ix3 n s e) = headsAt Q K V n s (headOf e) (laneOf e) := rfl

/-- Multi-head attention: project, attend per head, project back. -/
def mha (q k v : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) : SX.Idx → EReal :=
  dense (heads (dense q Wq bq) (dense k Wk bk) (dense v Wv bv)) Wo bo

end Mha

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibTransposedDot.lean ====
/-
  A matrix product with the right operand contracted on its last axis, read at an index, over the extended reals.

  For the dimension numbers of an `M×K` by `N×K` product (contract the left operand's axis 1 with the right operand's
  axis 1, no batch axis) — a product with the transpose, as a query block against the rows of a key block — the
  contraction index is one coordinate `k < K`, the left operand is read at `(p, k)` and the right one at `(q, k)`. So a
  kernel's matmul into a zero accumulator and a host `dot_general` are, at `(p, q)`, the sum over `k : Fin K` of
  `lhs (p, k) * rhs (q, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at output `(p, q)` and contraction position `k` is `(p, k)`. -/
theorem lhsIdx_tr (M K N : ℕ) (p : Fin M) (q : Fin N) (k : Fin K) :
    (DotDims.transposedRhs M K N).lhsIdx (ix2 p q) ((contrEquiv1 (DotDims.transposedRhs M K N) K rfl rfl).symm k) = ix2 p k := by
  funext a
  apply Fin.ext
  match a with
  | ⟨0, _⟩ => rfl
  | ⟨1, _⟩ => rfl

/-- The right operand's index at output `(p, q)` and contraction position `k` is `(q, k)`. -/
theorem rhsIdx_tr (M K N : ℕ) (p : Fin M) (q : Fin N) (k : Fin K) :
    (DotDims.transposedRhs M K N).rhsIdx (ix2 p q) ((contrEquiv1 (DotDims.transposedRhs M K N) K rfl rfl).symm k) = ix2 q k := by
  funext a
  apply Fin.ext
  match a with
  | ⟨0, _⟩ => rfl
  | ⟨1, _⟩ => rfl

/-- The contraction sum, re-indexed by the one contracted coordinate. -/
theorem sum_tr (M K N : ℕ) (a : (⟨2, ![M, K]⟩ : Shape).Idx → EReal) (w : (⟨2, ![N, K]⟩ : Shape).Idx → EReal)
    (p : Fin M) (q : Fin N) :
    ∑ k : (DotDims.transposedRhs M K N).contr.Idx,
        a ((DotDims.transposedRhs M K N).lhsIdx (ix2 p q) k) * w ((DotDims.transposedRhs M K N).rhsIdx (ix2 p q) k)
      = ∑ k : Fin K, a (ix2 p k) * w (ix2 q k) := by
  rw [← Equiv.sum_comp (contrEquiv1 (DotDims.transposedRhs M K N) K rfl rfl).symm]
  exact Finset.sum_congr rfl fun k _ => by rw [lhsIdx_tr, rhsIdx_tr]

/-- A kernel's matmul into the zero accumulator, the right operand contracted on its last axis, read at `(p, q)`. -/
theorem matmul_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  rw [Ideal.matmul_constant_zero_apply]
  exact sum_tr M K N lhs rhs p q

/-- A host `dot_general` with the same dimension numbers read at `(p, q)`. -/
theorem dotGeneral_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  rw [Ideal.dotGeneral_apply]
  exact sum_tr M K N lhs rhs p q

end Idealize.ShloMosaic.TransposedDot

end
-- ==== Proof.LibMaxSup.lean ====
/-
  Maxima from minus infinity at the ideal values are suprema.

  At the ideal values a float is an extended real, `maximumf` is `max`, and the f32 pattern 0xFF800000 is minus infinity,
  the bottom element. A fold of `max` from the bottom over a finite set is the supremum over the set, so
  - a `vector.multi_reduction <maximumf>` over one axis with the accumulator 0xFF800000, read at a result index, is the
    supremum over that axis's coordinates (`multiReduction_maximumf_negInf_single`), and
  - a host `stablehlo.reduce` with a maximum body from a rank-0 constant 0xFF800000, over any list of axes, read at a
    result index, is the supremum over the operand indices that drop to it (`hostReduce_maximumf_negInf`).
  Suprema need no finiteness hypothesis and no order of evaluation.
-/
import Idealize.ShloMosaic.PureOps.Ideal
import Idealize.ShloMosaic.PureOps.Ideal.Laws
import Idealize.ShloMosaic.PureOps.Reduce
import Mathlib.Data.Finset.Fold

noncomputable section

namespace MaxSup

open Idealize.ShloMosaic

/-- The f32 pattern of minus infinity denotes the bottom of the extended reals. -/
theorem neg_inf_f32 : Ideal.ofBits .f32 0xFF800000#32 = (⊥ : EReal) := by
  simp [Ideal.ofBits, Ideal.ieee]

/-- The same, spelt with the float operations' own `ofBits` read at the ideal values. -/
theorem neg_inf_f32' : (FloatOps.ofBits .f32 0xFF800000#32 : Ideal .f32) = (⊥ : EReal) := neg_inf_f32

/-- The fold of max from the bottom over a finite set is the supremum over the set. -/
theorem fold_max_bot_eq {ι : Type} (s : Finset ι) (f : ι → EReal) :
    s.fold max ⊥ f = ⨆ i, ⨆ _ : i ∈ s, f i := by
  apply le_antisymm
  · exact (Finset.fold_max_le _).mpr ⟨bot_le, fun i hi => le_iSup₂_of_le i hi le_rfl⟩
  · exact iSup₂_le fun i hi => (Finset.le_fold_max _).mpr (Or.inr ⟨i, hi, le_rfl⟩)

/-- Over a whole finite type it is the supremum over the type. -/
theorem fold_max_bot_univ {ι : Type} [Fintype ι] (f : ι → EReal) :
    (Finset.univ : Finset ι).fold max ⊥ f = ⨆ i, f i := by
  rw [fold_max_bot_eq]
  exact iSup_congr fun i => iSup_pos (Finset.mem_univ i)

/-- A `vector.multi_reduction <maximumf>` over ONE axis from minus infinity, read at the ideal values at a result index
    `j`: the supremum, over that axis's coordinates `k`, of the source at `j` with `k` inserted on the reduced axis. The
    accumulator's proof is typed as a printed program carries it. -/
theorem multiReduction_maximumf_negInf_single {s t : Shape} {a : Fin s.rank} (src : FVec Ideal s .f32)
    (h : s.Reduces [a] t) (hφ : FKind.Formats .f32)
    (hacc : (0xFF800000#32 : BitVec 32) = FKind.maximumf.neutral .f32 hφ) (j : t.Idx) :
    multiReduction (F := Ideal) .maximumf [a] t src 0xFF800000#32 h hφ hacc j
      = ⨆ k : Fin (s.size a), src (h.lift j k) := by
  refine (Ideal.multiReduction_maximumf_single src _ h hφ hacc j).trans ?_
  rw [neg_inf_f32', fold_max_bot_univ]
  rfl

/-- A host one-operand reduce with a maximum body from a rank-0 minus infinity, over any axes, read at the ideal values
    at a result index `j`: the supremum of the operand over the indices that drop to `j`. -/
theorem hostReduce_maximumf_negInf {s t : Shape} {axes : List (Fin s.rank)} (x : s.Idx → EReal)
    (h : s.ReducesTo axes t) (hu : 0 < (⟨0, ![]⟩ : Shape).numel) (j : t.Idx) :
    Host.reduce (FloatOps.maximumf (F := Ideal) (φ := .f32)) x (constant (F := Ideal) ⟨0, ![]⟩ .f32 0xFF800000#32) h hu j
      = ⨆ i, ⨆ _ : h.drop i = j, x i := by
  rw [Host.reduce_eq_fold]
  show (Finset.univ.filter fun i => h.drop i = j).fold max (Ideal.ofBits .f32 0xFF800000#32) x = _
  rw [neg_inf_f32, fold_max_bot_eq]
  exact iSup_congr fun i => iSup_congr_Prop (by simp) (fun _ => rfl)

end MaxSup

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.AttnHead.lean ====
/-
  The attention body's stored value, read at an index.

  One grid point holds a block of 512 query rows and all 2048 key and value rows of one batch, 128 lanes wide: two
  heads of 64 lanes side by side. For each half u of the lanes the body forms the logits of the 512 × 2048 pairs
  (the product with the transposed keys, times 1/8), subtracts each row's maximum, exponentiates, divides by the row's
  sum, and multiplies by the values; the two 64-lane results are laid side by side again. So the entry at row r and
  lane c depends on row r of the queries and on the keys and values only through the 64 lanes of c's own half, and is
  Mha.attendRow of those, at lane c % 64. Changes of float format are the identity at the ideal values, a maximum from
  minus infinity is a supremum, and a product into the zero accumulator is the plain sum.
-/
import proofs.«152555_j79791902425338_2_alg».proof.Proof.Gen.KernelIdeal.Skeleton
import proofs.«152555_j79791902425338_2_alg».proof.Proof.Spec
import proofs.«152555_j79791902425338_2_alg».proof.Proof.LibPlainDot
import proofs.«152555_j79791902425338_2_alg».proof.Proof.LibTransposedDot
import proofs.«152555_j79791902425338_2_alg».proof.Proof.LibMaxSup
import proofs.«152555_j79791902425338_2_alg».proof.Proof.LibRowReduce
import proofs.«152555_j79791902425338_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnPay

open Cert.KernelIdeal Cert.KernelIdeal.Gen Idealize.ShloMosaic Idealize.ShloMosaic.ValueIdx

/-! ## A row's maximum, shifted exponentials and sum, spread back over the row -/

/-- Each row's maximum, repeated along the row. -/
def rowTop (s : FVec Ideal S512x2048 .f32) : FVec Ideal S512x2048 .f32 :=
  broadcastTo S512x2048 (shapeCast S512x1 (multiReduction .maximumf [1] S512 s 0xFF800000#32 reduces_S512x2048_S512 (.inl rfl) rfl) shapeCasts_S512_S512x1) broadcasts_S512x1_S512x2048

theorem rowTop_apply (s : FVec Ideal S512x2048 .f32) (r : Fin 512) (t : Fin 2048) :
    rowTop s (ix2 r t) = ⨆ t' : Fin 2048, s (ix2 r t') := by
  unfold rowTop
  rw [broadcastTo_a1_ab_apply, RowReduce.shapeCast_a_a1_apply]
  refine (MaxSup.multiReduction_maximumf_negInf_single s reduces_S512x2048_S512 (.inl rfl) rfl (ix1 r)).trans ?_
  exact iSup_congr fun t' => congrArg s (RowReduce.lift_row reduces_S512x2048_S512 r t')

/-- Each entry's exponential after its row's maximum is subtracted. -/
def rowExp (s : FVec Ideal S512x2048 .f32) : FVec Ideal S512x2048 .f32 := exp (subf s (rowTop s))

theorem rowExp_apply (s : FVec Ideal S512x2048 .f32) (r : Fin 512) (t : Fin 2048) :
    rowExp s (ix2 r t) = Ideal.exp (s (ix2 r t) - ⨆ t' : Fin 2048, s (ix2 r t')) := by
  show Ideal.exp (subf s (rowTop s) (ix2 r t)) = _
  rw [subf_apply, rowTop_apply]

/-- Each row's sum, repeated along the row. -/
def rowSum (e : FVec Ideal S512x2048 .f32) : FVec Ideal S512x2048 .f32 :=
  broadcastTo S512x2048 (shapeCast S512x1 (multiReduction .add [1] S512 e 0x00000000#32 reduces_S512x2048_S512 (.inl rfl) rfl) shapeCasts_S512_S512x1) broadcasts_S512x1_S512x2048

theorem rowSum_apply (e : FVec Ideal S512x2048 .f32) (r : Fin 512) (t : Fin 2048) :
    rowSum e (ix2 r t) = ∑ t' : Fin 2048, e (ix2 r t') := by
  unfold rowSum
  rw [broadcastTo_a1_ab_apply, RowReduce.shapeCast_a_a1_apply]
  exact RowReduce.multiReduction_add_row e _ reduces_S512x2048_S512 (.inl rfl) rfl r

/-! ## One head -/

/-- The scaled logits of 512 query rows against 2048 key rows. -/
def logits (q : FVec Ideal S512x64 .bf16) (k : FVec Ideal S2048x64 .bf16) : FVec Ideal S512x2048 .f32 :=
  mulf (matmul dot_S512x64_S2048x64_S512x2048_1_1_0_0_n_n none q k (constant S512x2048 .f32 0x00000000#32))
    (broadcast S512x2048 (Scalar.ofBits .f32 0x3E000000#32))

theorem logits_apply (q : FVec Ideal S512x64 .bf16) (k : FVec Ideal S2048x64 .bf16) (r : Fin 512) (t : Fin 2048) :
    logits q k (ix2 r t) = Mha.logit (fun d => q (ix2 r d)) (fun t' d => k (ix2 t' d)) t := by
  unfold logits
  rw [mulf_apply, broadcast_apply]
  exact congrArg (fun z => z * Mha.eighth)
    (TransposedDot.matmul_zero_apply dot_S512x64_S2048x64_S512x2048_1_1_0_0_n_n rfl none q k r t)

/-- The softmax weights, as the body computes them. -/
def probs (q : FVec Ideal S512x64 .bf16) (k : FVec Ideal S2048x64 .bf16) : FVec Ideal S512x2048 .bf16 :=
  truncf .bf16 (divf (rowExp (logits q k)) (rowSum (rowExp (logits q k)))) bitsLt_bf16_f32

theorem probs_apply (q : FVec Ideal S512x64 .bf16) (k : FVec Ideal S2048x64 .bf16) (r : Fin 512) (t : Fin 2048) :
    probs q k (ix2 r t) = Mha.weight (fun d => q (ix2 r d)) (fun t' d => k (ix2 t' d)) t := by
  unfold probs
  rw [truncf_apply, divf_apply, rowSum_apply, rowExp_apply]
  unfold Mha.weight Mha.expo Mha.top
  simp only [rowExp_apply, logits_apply]

/-- One head's output: the weights times the values. -/
def headOut (q : FVec Ideal S512x64 .bf16) (k v : FVec Ideal S2048x64 .bf16) : FVec Ideal S512x64 .f32 :=
  matmul dot_S512x2048_S2048x64_S512x64_1_0_0_1_n_n none (probs q k) v (constant S512x64 .f32 0x00000000#32)

theorem headOut_apply (q : FVec Ideal S512x64 .bf16) (k v : FVec Ideal S2048x64 .bf16) (r : Fin 512) (d : Fin 64) :
    headOut q k v (ix2 r d)
      = Mha.attendRow (fun d' => q (ix2 r d')) (fun t d' => k (ix2 t d')) (fun t d' => v (ix2 t d')) d := by
  unfold headOut
  refine (PlainDot.matmul_zero_apply dot_S512x2048_S2048x64_S512x64_1_0_0_1_n_n rfl none (probs q k) v r d).trans ?_
  unfold Mha.attendRow
  exact Finset.sum_congr rfl fun t _ => by rw [probs_apply]

end Cert.KernelIdeal.AttnPay

end
-- ==== Proof.AttnPay.lean ====
/-
  The attention body's stored block, read at an index.

  The block is [1, 512, 128]. Lanes 0–63 are the first head's output and lanes 64–127 the second's, each computed from
  the same 64 lanes of the query, key and value blocks. So the entry at row r and lane c is Mha.attendRow of row r of
  the queries and of all key and value rows, each restricted to the 64 lanes of c's half, at lane c % 64.
-/
import proofs.«152555_j79791902425338_2_alg».proof.Proof.AttnHead

noncomputable section

namespace Cert.KernelIdeal.AttnPay

open Cert.KernelIdeal Cert.KernelIdeal.Gen Idealize.ShloMosaic Idealize.ShloMosaic.ValueIdx

/-- Lane d of the half (of the 128 lanes) that lane c lies in. -/
def sameHalf (c : Fin 128) (d : Fin 64) : Fin 128 := ⟨64 * (c.val / 64) + d.val, by have := c.isLt; have := d.isLt; omega⟩

/-- A lane's position within its half. -/
def within (c : Fin 128) : Fin 64 := ⟨c.val % 64, Nat.mod_lt _ (by norm_num)⟩

/-- attendRow depends on its three arguments entry by entry. -/
theorem attendRow_congr {N : ℕ} {qr qr' : Fin 64 → EReal} {k k' v v' : Fin N → Fin 64 → EReal}
    (hq : ∀ d, qr d = qr' d) (hk : ∀ t d, k t d = k' t d) (hv : ∀ t d, v t d = v' t d) (d : Fin 64) :
    Mha.attendRow qr k v d = Mha.attendRow qr' k' v' d := by
  have e1 : qr = qr' := funext hq
  have e2 : k = k' := funext fun t => funext (hk t)
  have e3 : v = v' := funext fun t => funext (hv t)
  rw [e1, e2, e3]

/-- 64 lanes from lane o on of a [1, n, 128] block, as an [n, 64] array: at (r, d) it reads the block at (0, r, o + d). -/
theorem half_apply {n : ℕ} (o : ℕ) (x : (⟨3, ![1, n, 128]⟩ : Shape).Idx → EReal)
    (h1 : (⟨3, ![1, n, 128]⟩ : Shape).ShapeCasts ⟨2, ![n, 128]⟩) (h2 : (⟨2, ![n, 128]⟩ : Shape).Slices ![0, o] ⟨2, ![n, 64]⟩)
    (r : Fin n) (d : Fin 64) (k : Fin 128) (hk : k.val = o + d.val) :
    extractStridedSlice ⟨2, ![n, 64]⟩ ![0, o] (shapeCast ⟨2, ![n, 128]⟩ x h1) h2 (ix2 r d) = x (ix3 (0 : Fin 1) r k) := by
  rw [slice2_axis1_apply o _ h2 r d k hk, shapeCast_1ab_ab_apply]

/-- The stored block is the two heads' outputs laid side by side. -/
theorem pay_unfold (x0 : Vec Ideal S1x512x128 .bf16) (x1 x2 : Vec Ideal S1x2048x128 .bf16) :
    k3_pay1 (F := Ideal) (k3_pay5 x0 x1 x2) (k3_pay6 x2) (k3_pay7 x0 x1)
      = shapeCast S1x512x128 (truncf .bf16 (concatenate S512x128 1
          [⟨S512x64, headOut
              (extractStridedSlice S512x64 ![0, 0] (shapeCast S512x128 x0 shapeCasts_S1x512x128_S512x128) slices_S512x128_o0_0_S512x64)
              (extractStridedSlice S2048x64 ![0, 0] (shapeCast S2048x128 x1 shapeCasts_S1x2048x128_S2048x128) slices_S2048x128_o0_0_S2048x64)
              (extractStridedSlice S2048x64 ![0, 0] (shapeCast S2048x128 x2 shapeCasts_S1x2048x128_S2048x128) slices_S2048x128_o0_0_S2048x64)⟩,
           ⟨S512x64, headOut
              (extractStridedSlice S512x64 ![0, 64] (shapeCast S512x128 x0 shapeCasts_S1x512x128_S512x128) slices_S512x128_o0_64_S512x64)
              (extractStridedSlice S2048x64 ![0, 64] (shapeCast S2048x128 x1 shapeCasts_S1x2048x128_S2048x128) slices_S2048x128_o0_64_S2048x64)
              (extractStridedSlice S2048x64 ![0, 64] (shapeCast S2048x128 x2 shapeCasts_S1x2048x128_S2048x128) slices_S2048x128_o0_64_S2048x64)⟩]
          concatenates_S512x64_S512x64_S512x128_d1) bitsLt_bf16_f32) shapeCasts_S512x128_S1x512x128 := rfl

/-- The stored block at row r, lane c. -/
theorem payload_apply (x0 : Vec Ideal S1x512x128 .bf16) (x1 x2 : Vec Ideal S1x2048x128 .bf16) (r : Fin 512) (c : Fin 128) :
    k3_pay1 (F := Ideal) (k3_pay5 x0 x1 x2) (k3_pay6 x2) (k3_pay7 x0 x1) (ix3 (0 : Fin 1) r c)
      = Mha.attendRow (fun d' => x0 (ix3 (0 : Fin 1) r (sameHalf c d'))) (fun t d' => x1 (ix3 (0 : Fin 1) t (sameHalf c d')))
          (fun t d' => x2 (ix3 (0 : Fin 1) t (sameHalf c d'))) (within c) := by
  have hc128 := c.isLt
  rw [pay_unfold, shapeCast_ab_1ab_apply, truncf_apply]
  by_cases hc : c.val < 64
  · rw [concatenate_pair_apply_left (t := S512x128) (s₁ := S512x64) (s₂ := S512x64) (1 : Fin 2) _ _ concatenates_S512x64_S512x64_S512x128_d1 (ix2 r c) rfl (ix2 r (within c))
      (fun b => by
        match b with
        | ⟨0, _⟩ => rfl
        | ⟨1, _⟩ => show c.val % 64 = c.val; omega)]
    rw [headOut_apply]
    exact attendRow_congr
      (fun d' => half_apply 0 x0 _ _ r d' (sameHalf c d') (by show 64 * (c.val / 64) + d'.val = 0 + d'.val; omega))
      (fun t d' => half_apply 0 x1 _ _ t d' (sameHalf c d') (by show 64 * (c.val / 64) + d'.val = 0 + d'.val; omega))
      (fun t d' => half_apply 0 x2 _ _ t d' (sameHalf c d') (by show 64 * (c.val / 64) + d'.val = 0 + d'.val; omega)) _
  · rw [concatenate_pair_apply_right (t := S512x128) (s₁ := S512x64) (s₂ := S512x64) (1 : Fin 2) _ _ concatenates_S512x64_S512x64_S512x128_d1 (ix2 r c) rfl rfl (ix2 r (within c))
      (fun b hb => by
        match b with
        | ⟨0, _⟩ => rfl
        | ⟨1, _⟩ => exact absurd rfl hb)
      (by show c.val % 64 + 64 = c.val; omega)]
    rw [headOut_apply]
    exact attendRow_congr
      (fun d' => half_apply 64 x0 _ _ r d' (sameHalf c d') (by show 64 * (c.val / 64) + d'.val = 64 + d'.val; omega))
      (fun t d' => half_apply 64 x1 _ _ t d' (sameHalf c d') (by show 64 * (c.val / 64) + d'.val = 64 + d'.val; omega))
      (fun t d' => half_apply 64 x2 _ _ t d' (sameHalf c d') (by show 64 * (c.val / 64) + d'.val = 64 + d'.val; omega)) _

end Cert.KernelIdeal.AttnPay

end
-- ==== Proof.Region3.lean ====
/-
  The attention region's output array.

  The region's grid is 4 batches × 8 lane blocks × 4 row blocks. Point (n, g, i) reads rows 512 i … 512 i + 511 of batch
  n's queries and all 2048 rows of its keys and values, each in lanes 128 g … 128 g + 127, and writes the same rows and
  lanes of the output. Lanes 128 g + c with c < 64 are head 2 g, the others head 2 g + 1: feature e = 128 g + c lies in
  head e / 64 at lane e % 64, and lane d' of c's half of the block is feature 64 (e / 64) + d'. So what a point writes
  is its block of Mha.heads of the three arrays as the region finds them, and the 128 blocks tile the output array.
-/
import proofs.«152555_j79791902425338_2_alg».proof.Proof.Gen.KernelIdeal.Frame
import proofs.«152555_j79791902425338_2_alg».proof.Proof.AttnPay
import proofs.«152555_j79791902425338_2_alg».proof.Proof.Spec

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl

/-- The printed index maps over the 128 grid points: the query block moves with the output block; the key and value
    blocks share its batch and lane block and always start at row 0; the output's block indices stay in range. -/
theorem index_facts : ∀ t : Fin cfg3.N,
    win3_0.index t (0 : Fin 3) = win3_3.index t (0 : Fin 3) ∧ win3_0.index t (1 : Fin 3) = win3_3.index t (1 : Fin 3)
    ∧ win3_0.index t (2 : Fin 3) = win3_3.index t (2 : Fin 3)
    ∧ win3_1.index t (0 : Fin 3) = win3_3.index t (0 : Fin 3) ∧ win3_1.index t (1 : Fin 3) = 0
    ∧ win3_1.index t (2 : Fin 3) = win3_3.index t (2 : Fin 3)
    ∧ win3_2.index t (0 : Fin 3) = win3_3.index t (0 : Fin 3) ∧ win3_2.index t (1 : Fin 3) = 0
    ∧ win3_2.index t (2 : Fin 3) = win3_3.index t (2 : Fin 3)
    ∧ win3_3.index t (0 : Fin 3) ≤ 3 ∧ win3_3.index t (1 : Fin 3) ≤ 3 ∧ win3_3.index t (2 : Fin 3) ≤ 7 :=
  (by decide +kernel : ∀ t : Fin grid3.N, _)

/-- Every block of the output array is some point's. -/
theorem index_onto : ∀ (q0 : Fin 4) (q1 : Fin 4) (q2 : Fin 8), ∃ t : Fin cfg3.N, win3_3.index t = ![q0.val, q1.val, q2.val] :=
  (by decide +kernel : ∀ (q0 : Fin 4) (q1 : Fin 4) (q2 : Fin 8), ∃ t : Fin grid3.N, win3_3.index t = ![q0.val, q1.val, q2.val])

/-- Where an element of window w's block at point t sits in the window's array: block index × block size + the
    coordinate inside the block, on each axis. -/
theorem emb_query (t : Fin cfg3.N) (r : Fin 512) (c' : Fin 128) (n : Fin 4) (s : Fin 2048) (e : Fin 1024)
    (hn : n.val = win3_0.index t (0 : Fin 3)) (hs : s.val = win3_0.index t (1 : Fin 3) * 512 + r.val)
    (he : e.val = win3_0.index t (2 : Fin 3) * 128 + c'.val) :
    ((cfg3.win 0).blk t).view.emb (ix3 (0 : Fin 1) r c') = ix3 n s e := by
  funext a; apply Fin.ext
  match a with
  | ⟨0, _⟩ => show win3_0.index t (0 : Fin 3) * 1 + 1 * 0 = n.val; omega
  | ⟨1, _⟩ => show win3_0.index t (1 : Fin 3) * 512 + 1 * r.val = s.val; omega
  | ⟨2, _⟩ => show win3_0.index t (2 : Fin 3) * 128 + 1 * c'.val = e.val; omega

theorem emb_key (t : Fin cfg3.N) (r : Fin 2048) (c' : Fin 128) (n : Fin 4) (s : Fin 2048) (e : Fin 1024)
    (hn : n.val = win3_1.index t (0 : Fin 3)) (hs : s.val = win3_1.index t (1 : Fin 3) * 2048 + r.val)
    (he : e.val = win3_1.index t (2 : Fin 3) * 128 + c'.val) :
    ((cfg3.win 1).blk t).view.emb (ix3 (0 : Fin 1) r c') = ix3 n s e := by
  funext a; apply Fin.ext
  match a with
  | ⟨0, _⟩ => show win3_1.index t (0 : Fin 3) * 1 + 1 * 0 = n.val; omega
  | ⟨1, _⟩ => show win3_1.index t (1 : Fin 3) * 2048 + 1 * r.val = s.val; omega
  | ⟨2, _⟩ => show win3_1.index t (2 : Fin 3) * 128 + 1 * c'.val = e.val; omega

theorem emb_value (t : Fin cfg3.N) (r : Fin 2048) (c' : Fin 128) (n : Fin 4) (s : Fin 2048) (e : Fin 1024)
    (hn : n.val = win3_2.index t (0 : Fin 3)) (hs : s.val = win3_2.index t (1 : Fin 3) * 2048 + r.val)
    (he : e.val = win3_2.index t (2 : Fin 3) * 128 + c'.val) :
    ((cfg3.win 2).blk t).view.emb (ix3 (0 : Fin 1) r c') = ix3 n s e := by
  funext a; apply Fin.ext
  match a with
  | ⟨0, _⟩ => show win3_2.index t (0 : Fin 3) * 1 + 1 * 0 = n.val; omega
  | ⟨1, _⟩ => show win3_2.index t (1 : Fin 3) * 2048 + 1 * r.val = s.val; omega
  | ⟨2, _⟩ => show win3_2.index t (2 : Fin 3) * 128 + 1 * c'.val = e.val; omega

theorem emb_out (t : Fin cfg3.N) (r : Fin 512) (c' : Fin 128) (n : Fin 4) (s : Fin 2048) (e : Fin 1024)
    (hn : n.val = win3_3.index t (0 : Fin 3)) (hs : s.val = win3_3.index t (1 : Fin 3) * 512 + r.val)
    (he : e.val = win3_3.index t (2 : Fin 3) * 128 + c'.val) :
    ((cfg3.win 3).blk t).view.emb (ix3 (0 : Fin 1) r c') = ix3 n s e := by
  funext a; apply Fin.ext
  match a with
  | ⟨0, _⟩ => show win3_3.index t (0 : Fin 3) * 1 + 1 * 0 = n.val; omega
  | ⟨1, _⟩ => show win3_3.index t (1 : Fin 3) * 512 + 1 * r.val = s.val; omega
  | ⟨2, _⟩ => show win3_3.index t (2 : Fin 3) * 128 + 1 * c'.val = e.val; omega

/-- attendRow depends on its arguments entry by entry, and on the lane. -/
theorem attendRow_congr' {N : ℕ} {qr qr' : Fin 64 → EReal} {k k' v v' : Fin N → Fin 64 → EReal} {d d' : Fin 64}
    (hq : ∀ j, qr j = qr' j) (hk : ∀ t j, k t j = k' t j) (hv : ∀ t j, v t j = v' t j) (hd : d = d') :
    Mha.attendRow qr k v d = Mha.attendRow qr' k' v' d' := by
  rw [hd]; exact AttnPay.attendRow_congr hq hk hv d'

/-- What point t writes back is its block of Mha.heads of the three arrays as the region finds them. -/
theorem flushed_eq (c : Dev nD) (t : Fin cfg3.N) :
    (dat3 (F := Ideal) V c).flushed 3 t
      = ((cfg3.win 3).blk t).view.read (Elt Ideal) (Mha.heads (V c main_v14) (V c main_v17) (V c main_v20)) := by
  show (cfg3.win 3).cut (grid3.coords t) ((dat3 V c).after 3 t) = _
  rw [after3_3]
  unfold out3_3
  rw [View.canon_unit_zero zero3]
  simp only [View.ld_unit_zero (S := S1x512x128) zero3, View.ld_unit_zero (S := S1x2048x128) zero3]
  obtain ⟨q0, q1, q2, k0, k1, k2, v0, v1, v2, b0, b1, b2⟩ := index_facts t
  funext j
  obtain ⟨u, r, cc, rfl⟩ : ∃ (u : Fin 1) (r : Fin 512) (cc : Fin 128), j = ix3 u r cc := ⟨j 0, j 1, j 2, eq_ix3 j⟩
  have hu : u = 0 := Fin.ext (by omega)
  subst hu
  have hr := r.isLt
  have hcc := cc.isLt
  -- the array coordinates of the block's element (0, r, cc)
  have emb3 := emb_out t r cc ⟨win3_3.index t (0 : Fin 3), by omega⟩ ⟨win3_3.index t (1 : Fin 3) * 512 + r.val, by omega⟩
    ⟨win3_3.index t (2 : Fin 3) * 128 + cc.val, by omega⟩ rfl rfl rfl
  show k3_pay1 (F := Ideal) (k3_pay5 (iblk3 V c 0 t) (iblk3 V c 1 t) (iblk3 V c 2 t)) (k3_pay6 (iblk3 V c 2 t))
      (k3_pay7 (iblk3 V c 0 t) (iblk3 V c 1 t)) (ix3 (0 : Fin 1) r cc)
    = Mha.heads (V c main_v14) (V c main_v17) (V c main_v20) (((cfg3.win 3).blk t).view.emb (ix3 (0 : Fin 1) r cc))
  rw [emb3, Mha.heads_apply]
  refine (AttnPay.payload_apply (iblk3 V c 0 t) (iblk3 V c 1 t) (iblk3 V c 2 t) r cc).trans ?_
  unfold Mha.headsAt
  refine attendRow_congr' (fun d' => ?_) (fun t' d' => ?_) (fun t' d' => ?_) ?_
  · have hd := d'.isLt
    show V c main_v14 (((cfg3.win 0).blk t).view.emb (ix3 (0 : Fin 1) r (AttnPay.sameHalf cc d'))) = _
    refine congrArg (V c main_v14) (emb_query t r _ _ _ _ ?_ ?_ ?_)
    · show win3_3.index t (0 : Fin 3) = win3_0.index t (0 : Fin 3); omega
    · show win3_3.index t (1 : Fin 3) * 512 + r.val = win3_0.index t (1 : Fin 3) * 512 + r.val; omega
    · show 64 * ((win3_3.index t (2 : Fin 3) * 128 + cc.val) / 64) + d'.val
        = win3_0.index t (2 : Fin 3) * 128 + (64 * (cc.val / 64) + d'.val); omega
  · have hd := d'.isLt
    have ht := t'.isLt
    show V c main_v17 (((cfg3.win 1).blk t).view.emb (ix3 (0 : Fin 1) t' (AttnPay.sameHalf cc d'))) = _
    refine congrArg (V c main_v17) (emb_key t t' _ _ _ _ ?_ ?_ ?_)
    · show win3_3.index t (0 : Fin 3) = win3_1.index t (0 : Fin 3); omega
    · show t'.val = win3_1.index t (1 : Fin 3) * 2048 + t'.val; omega
    · show 64 * ((win3_3.index t (2 : Fin 3) * 128 + cc.val) / 64) + d'.val
        = win3_1.index t (2 : Fin 3) * 128 + (64 * (cc.val / 64) + d'.val); omega
  · have hd := d'.isLt
    have ht := t'.isLt
    show V c main_v20 (((cfg3.win 2).blk t).view.emb (ix3 (0 : Fin 1) t' (AttnPay.sameHalf cc d'))) = _
    refine congrArg (V c main_v20) (emb_value t t' _ _ _ _ ?_ ?_ ?_)
    · show win3_3.index t (0 : Fin 3) = win3_2.index t (0 : Fin 3); omega
    · show t'.val = win3_2.index t (1 : Fin 3) * 2048 + t'.val; omega
    · show 64 * ((win3_3.index t (2 : Fin 3) * 128 + cc.val) / 64) + d'.val
        = win3_2.index t (2 : Fin 3) * 128 + (64 * (cc.val / 64) + d'.val); omega
  · exact Fin.ext (by show cc.val % 64 = (win3_3.index t (2 : Fin 3) * 128 + cc.val) % 64; omega)

/-- An index of the output array is in point t's block iff each coordinate is in the block's range on its axis. -/
theorem mem_blk (t : Fin cfg3.N) (i : S4x2048x1024.Idx) :
    i ∈ ((cfg3.win 3).blk t).view.set
      ↔ ∀ a : Fin 3, win3_3.index t a * S1x512x128.size a ≤ (i a).val ∧ (i a).val < win3_3.index t a * S1x512x128.size a + S1x512x128.size a := by
  show i ∈ ((View.whole main_v21).slice (win3_3.rect t)).set ↔ _
  rw [View.set_slice_whole, Rect.mem_set_unit]
  exact Iff.rfl

/-- The 128 blocks tile the output array. -/
theorem cover (i : S4x2048x1024.Idx) : ∃ t : Fin cfg3.N, (cfg3.win 3).flush t = true ∧ i ∈ ((cfg3.win 3).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, by omega⟩ ⟨(i 1).val / 512, by omega⟩ ⟨(i 2).val / 128, by omega⟩
  have e0 : win3_3.index t (0 : Fin 3) = (i 0).val := congrFun ht 0
  have e1 : win3_3.index t (1 : Fin 3) = (i 1).val / 512 := congrFun ht 1
  have e2 : win3_3.index t (2 : Fin 3) = (i 2).val / 128 := congrFun ht 2
  refine ⟨t, flush3_3 t, ?_⟩
  rw [mem_blk]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 128 ≤ (i 2).val ∧ (i 2).val < win3_3.index t (2 : Fin 3) * 128 + 128; omega

/-- The output array after the region: all heads of the three arrays as the region finds them. -/
theorem final3 (c : Dev nD) :
    (dat3 (F := Ideal) V c).arrAt 3 cfg3.N = Mha.heads (V c main_v14) (V c main_v17) (V c main_v20) :=
  (dat3 V c).arrAt_eq_of_cover 3 _ (fun t _ => flushed_eq V c t) cover

end Cert.KernelIdeal.Region3

end
-- ==== Proof.RowsSpec.lean ====
/-
  A dense layer on rows: the form a row-tiled kernel computes.

  The activations are flattened to [8192, 1024] (row 2048 n + s is position s of batch n), the weight arrives already
  transposed as [1024, 1024] (input feature × output feature) and the bias as one row [1, 1024]:

    rowsDense x wt b (p, e) = ∑ d, x (p, d) * wt (d, e) + b (0, e)

  Each output row depends on its own input row only, so any tiling of the rows computes the same array.
-/
import Idealize.ShloMosaic.PureOps.Ideal
import Idealize.ShloMosaic.Lib.ValueIdx

noncomputable section

namespace Mha

open Idealize.ShloMosaic Idealize.ShloMosaic.ValueIdx

/-- Flattened activations: (batch, position) × feature. -/
abbrev SR : Shape := ⟨2, ![8192, 1024]⟩
/-- A transposed weight: input feature × output feature. -/
abbrev SWt : Shape := ⟨2, ![1024, 1024]⟩
/-- A bias as one row. -/
abbrev SB1 : Shape := ⟨2, ![1, 1024]⟩

/-- x · wt + b at row p, output feature e. -/
def rowsDenseAt (x : SR.Idx → EReal) (wt : SWt.Idx → EReal) (b : SB1.Idx → EReal) (p : Fin 8192) (e : Fin 1024) : EReal :=
  ∑ d : Fin 1024, x (ix2 p d) * wt (ix2 d e) + b (ix2 (0 : Fin 1) e)

/-- x · wt + b as an array. -/
def rowsDense (x : SR.Idx → EReal) (wt : SWt.Idx → EReal) (b : SB1.Idx → EReal) : SR.Idx → EReal :=
  fun i => rowsDenseAt x wt b (i 0) (i 1)

theorem rowsDense_apply (x : SR.Idx → EReal) (wt : SWt.Idx → EReal) (b : SB1.Idx → EReal) (p : Fin 8192) (e : Fin 1024) :
    rowsDense x wt b (ix2 p e) = rowsDenseAt x wt b p e := rfl

end Mha

end
-- ==== Proof.LinPay.lean ====
/-
  The dense-projection regions' arithmetic, read at an index.

  Each of the four projection regions loads a block x of 1024 rows of the activations, the whole transposed
  weight wt and the bias row b, and stores x · wt + b. At the ideal values a change of float format is the
  identity, a matrix product into the zero accumulator is the plain sum over the contracted coordinate, and the
  bias row is repeated on every row, so the stored block is, at row p and column q,

      ∑ d, x (p, d) * wt (d, q) + b (0, q).

  So if the block's row p is row r of the flattened activations, and the weight and the bias row are the whole
  arrays, the stored entry is the dense layer on rows at (r, q): each output row depends on its own input row only.
-/
import proofs.«152555_j79791902425338_2_alg».proof.Proof.Gen.KernelIdeal.Skeleton
import proofs.«152555_j79791902425338_2_alg».proof.Proof.LibPlainDot
import proofs.«152555_j79791902425338_2_alg».proof.Proof.RowsSpec
import Idealize.ShloMosaic.Lib.ValueLayout
import Idealize.ShloMosaic.Lib.Pipeline.Value

noncomputable section

namespace Mha.Lin

open Idealize.ShloMosaic Idealize.ShloMosaic.ValueIdx Cert.KernelIdeal Cert.KernelIdeal.Gen

/-- The regions' matrix product contracts the left operand's columns with the right operand's rows: the plain product. -/
theorem dot_plain : dot_S1024x1024_S1024x1024_S1024x1024_1_0_0_1_n_n = DotDims.plain 1024 1024 1024 := rfl

/-- Region 0's stored block at row p, column q. -/
theorem k0_pay1_apply (x0 : Vec Ideal S1024x1024 .f32) (x1 : Vec Ideal S1024x1024 .bf16) (x2 : Vec Ideal S1x1024 .f32)
    (p q : Fin 1024) :
    k0_pay1 (F := Ideal) x0 x1 x2 (ix2 p q)
      = ∑ d : Fin 1024, x0 (ix2 p d) * x1 (ix2 d q) + x2 (ix2 (0 : Fin 1) q) := by
  unfold k0_pay1
  rw [truncf_apply, addf_apply, shapeCast_self, shapeCast_self, shapeCast_self]
  exact congrArg₂ (· + ·)
    (PlainDot.matmul_zero_apply _ dot_plain none (truncf .bf16 x0 bitsLt_bf16_f32) x1 p q)
    (broadcastTo_1b_ab_apply x2 broadcasts_S1x1024_S1024x1024 p q)

/-- Region 1's stored block at row p, column q. -/
theorem k1_pay1_apply (x0 : Vec Ideal S1024x1024 .f32) (x1 : Vec Ideal S1024x1024 .bf16) (x2 : Vec Ideal S1x1024 .f32)
    (p q : Fin 1024) :
    k1_pay1 (F := Ideal) x0 x1 x2 (ix2 p q)
      = ∑ d : Fin 1024, x0 (ix2 p d) * x1 (ix2 d q) + x2 (ix2 (0 : Fin 1) q) := by
  unfold k1_pay1
  rw [truncf_apply, addf_apply, shapeCast_self, shapeCast_self, shapeCast_self]
  exact congrArg₂ (· + ·)
    (PlainDot.matmul_zero_apply _ dot_plain none (truncf .bf16 x0 bitsLt_bf16_f32) x1 p q)
    (broadcastTo_1b_ab_apply x2 broadcasts_S1x1024_S1024x1024 p q)

/-- Region 2's stored block at row p, column q. -/
theorem k2_pay1_apply (x0 : Vec Ideal S1024x1024 .f32) (x1 : Vec Ideal S1024x1024 .bf16) (x2 : Vec Ideal S1x1024 .f32)
    (p q : Fin 1024) :
    k2_pay1 (F := Ideal) x0 x1 x2 (ix2 p q)
      = ∑ d : Fin 1024, x0 (ix2 p d) * x1 (ix2 d q) + x2 (ix2 (0 : Fin 1) q) := by
  unfold k2_pay1
  rw [truncf_apply, addf_apply, shapeCast_self, shapeCast_self, shapeCast_self]
  exact congrArg₂ (· + ·)
    (PlainDot.matmul_zero_apply _ dot_plain none (truncf .bf16 x0 bitsLt_bf16_f32) x1 p q)
    (broadcastTo_1b_ab_apply x2 broadcasts_S1x1024_S1024x1024 p q)

/-- Region 4's stored block at row p, column q: the same sum, its activations already in the narrow format. -/
theorem k4_pay1_apply (x0 : Vec Ideal S1024x1024 .bf16) (x1 : Vec Ideal S1024x1024 .bf16) (x2 : Vec Ideal S1x1024 .f32)
    (p q : Fin 1024) :
    k4_pay1 (F := Ideal) x0 x1 x2 (ix2 p q)
      = ∑ d : Fin 1024, x0 (ix2 p d) * x1 (ix2 d q) + x2 (ix2 (0 : Fin 1) q) := by
  unfold k4_pay1
  rw [addf_apply, shapeCast_self, shapeCast_self, shapeCast_self]
  exact congrArg₂ (· + ·)
    (PlainDot.matmul_zero_apply _ dot_plain none x0 x1 p q)
    (broadcastTo_1b_ab_apply x2 broadcasts_S1x1024_S1024x1024 p q)

/-- Region 0's stored entry is an entry of the dense layer on rows, once the block's row is a row of the
    activations and the weight and the bias row are read whole. -/
theorem pay0_rows (X : Mha.SR.Idx → EReal) (Wt : Mha.SWt.Idx → EReal) (B : Mha.SB1.Idx → EReal)
    (x0 : Vec Ideal S1024x1024 .f32) (x1 : Vec Ideal S1024x1024 .bf16) (x2 : Vec Ideal S1x1024 .f32)
    (j : S1024x1024.Idx) (i : Mha.SR.Idx)
    (h0 : ∀ d : Fin 1024, x0 (ix2 (j 0) d) = X (ix2 (i 0) d))
    (h1 : ∀ d : Fin 1024, x1 (ix2 d (j 1)) = Wt (ix2 d (i 1)))
    (h2 : x2 (ix2 (0 : Fin 1) (j 1)) = B (ix2 (0 : Fin 1) (i 1))) :
    k0_pay1 (F := Ideal) x0 x1 x2 j = Mha.rowsDense X Wt B i := by
  obtain ⟨p, q, rfl⟩ : ∃ (p q : Fin 1024), j = ix2 p q := ⟨j 0, j 1, eq_ix2 j⟩
  obtain ⟨r, e, rfl⟩ : ∃ (r : Fin 8192) (e : Fin 1024), i = ix2 r e := ⟨i 0, i 1, eq_ix2 i⟩
  have h0' : ∀ d : Fin 1024, x0 (ix2 p d) = X (ix2 r d) := h0
  have h1' : ∀ d : Fin 1024, x1 (ix2 d q) = Wt (ix2 d e) := h1
  have h2' : x2 (ix2 (0 : Fin 1) q) = B (ix2 (0 : Fin 1) e) := h2
  rw [k0_pay1_apply, Mha.rowsDense_apply]
  unfold Mha.rowsDenseAt
  rw [h2']
  exact congrArg (· + _) (Finset.sum_congr rfl fun d _ => by rw [h0', h1'])

/-- Region 1's stored entry is an entry of the dense layer on rows, once the block's row is a row of the
    activations and the weight and the bias row are read whole. -/
theorem pay1_rows (X : Mha.SR.Idx → EReal) (Wt : Mha.SWt.Idx → EReal) (B : Mha.SB1.Idx → EReal)
    (x0 : Vec Ideal S1024x1024 .f32) (x1 : Vec Ideal S1024x1024 .bf16) (x2 : Vec Ideal S1x1024 .f32)
    (j : S1024x1024.Idx) (i : Mha.SR.Idx)
    (h0 : ∀ d : Fin 1024, x0 (ix2 (j 0) d) = X (ix2 (i 0) d))
    (h1 : ∀ d : Fin 1024, x1 (ix2 d (j 1)) = Wt (ix2 d (i 1)))
    (h2 : x2 (ix2 (0 : Fin 1) (j 1)) = B (ix2 (0 : Fin 1) (i 1))) :
    k1_pay1 (F := Ideal) x0 x1 x2 j = Mha.rowsDense X Wt B i := by
  obtain ⟨p, q, rfl⟩ : ∃ (p q : Fin 1024), j = ix2 p q := ⟨j 0, j 1, eq_ix2 j⟩
  obtain ⟨r, e, rfl⟩ : ∃ (r : Fin 8192) (e : Fin 1024), i = ix2 r e := ⟨i 0, i 1, eq_ix2 i⟩
  have h0' : ∀ d : Fin 1024, x0 (ix2 p d) = X (ix2 r d) := h0
  have h1' : ∀ d : Fin 1024, x1 (ix2 d q) = Wt (ix2 d e) := h1
  have h2' : x2 (ix2 (0 : Fin 1) q) = B (ix2 (0 : Fin 1) e) := h2
  rw [k1_pay1_apply, Mha.rowsDense_apply]
  unfold Mha.rowsDenseAt
  rw [h2']
  exact congrArg (· + _) (Finset.sum_congr rfl fun d _ => by rw [h0', h1'])

/-- Region 2's stored entry is an entry of the dense layer on rows, once the block's row is a row of the
    activations and the weight and the bias row are read whole. -/
theorem pay2_rows (X : Mha.SR.Idx → EReal) (Wt : Mha.SWt.Idx → EReal) (B : Mha.SB1.Idx → EReal)
    (x0 : Vec Ideal S1024x1024 .f32) (x1 : Vec Ideal S1024x1024 .bf16) (x2 : Vec Ideal S1x1024 .f32)
    (j : S1024x1024.Idx) (i : Mha.SR.Idx)
    (h0 : ∀ d : Fin 1024, x0 (ix2 (j 0) d) = X (ix2 (i 0) d))
    (h1 : ∀ d : Fin 1024, x1 (ix2 d (j 1)) = Wt (ix2 d (i 1)))
    (h2 : x2 (ix2 (0 : Fin 1) (j 1)) = B (ix2 (0 : Fin 1) (i 1))) :
    k2_pay1 (F := Ideal) x0 x1 x2 j = Mha.rowsDense X Wt B i := by
  obtain ⟨p, q, rfl⟩ : ∃ (p q : Fin 1024), j = ix2 p q := ⟨j 0, j 1, eq_ix2 j⟩
  obtain ⟨r, e, rfl⟩ : ∃ (r : Fin 8192) (e : Fin 1024), i = ix2 r e := ⟨i 0, i 1, eq_ix2 i⟩
  have h0' : ∀ d : Fin 1024, x0 (ix2 p d) = X (ix2 r d) := h0
  have h1' : ∀ d : Fin 1024, x1 (ix2 d q) = Wt (ix2 d e) := h1
  have h2' : x2 (ix2 (0 : Fin 1) q) = B (ix2 (0 : Fin 1) e) := h2
  rw [k2_pay1_apply, Mha.rowsDense_apply]
  unfold Mha.rowsDenseAt
  rw [h2']
  exact congrArg (· + _) (Finset.sum_congr rfl fun d _ => by rw [h0', h1'])

/-- Region 4's stored entry is an entry of the dense layer on rows, once the block's row is a row of the
    activations and the weight and the bias row are read whole. -/
theorem pay4_rows (X : Mha.SR.Idx → EReal) (Wt : Mha.SWt.Idx → EReal) (B : Mha.SB1.Idx → EReal)
    (x0 : Vec Ideal S1024x1024 .bf16) (x1 : Vec Ideal S1024x1024 .bf16) (x2 : Vec Ideal S1x1024 .f32)
    (j : S1024x1024.Idx) (i : Mha.SR.Idx)
    (h0 : ∀ d : Fin 1024, x0 (ix2 (j 0) d) = X (ix2 (i 0) d))
    (h1 : ∀ d : Fin 1024, x1 (ix2 d (j 1)) = Wt (ix2 d (i 1)))
    (h2 : x2 (ix2 (0 : Fin 1) (j 1)) = B (ix2 (0 : Fin 1) (i 1))) :
    k4_pay1 (F := Ideal) x0 x1 x2 j = Mha.rowsDense X Wt B i := by
  obtain ⟨p, q, rfl⟩ : ∃ (p q : Fin 1024), j = ix2 p q := ⟨j 0, j 1, eq_ix2 j⟩
  obtain ⟨r, e, rfl⟩ : ∃ (r : Fin 8192) (e : Fin 1024), i = ix2 r e := ⟨i 0, i 1, eq_ix2 i⟩
  have h0' : ∀ d : Fin 1024, x0 (ix2 p d) = X (ix2 r d) := h0
  have h1' : ∀ d : Fin 1024, x1 (ix2 d q) = Wt (ix2 d e) := h1
  have h2' : x2 (ix2 (0 : Fin 1) q) = B (ix2 (0 : Fin 1) e) := h2
  rw [k4_pay1_apply, Mha.rowsDense_apply]
  unfold Mha.rowsDenseAt
  rw [h2']
  exact congrArg (· + _) (Finset.sum_congr rfl fun d _ => by rw [h0', h1'])

end Mha.Lin

end
-- ==== Proof.LinRegion.lean ====
/-
  The four dense-projection regions, from blocks to arrays.

  Each region runs on a grid of 8 points. At point t it reads rows 1024 t … 1024 t + 1023 of its flattened
  activations x, the whole transposed weight wt and the bias row b, and writes rows 1024 t … 1024 t + 1023 of its
  output. A block's coordinate along an axis is always (block index) × (block size) + 1 × (coordinate inside the
  block), and the block indices are (t, 0) for the activations and the output and (0, 0) for the weight and the
  bias, so the entry the region writes at row 1024 t + p, column q is

      ∑ d, x (1024 t + p, d) * wt (d, q) + b (0, q),

  the dense layer on rows at that entry. Row r of the output lies in the block of point r / 1024, so the eight
  blocks tile the array, and after the last point the output array is the dense layer on rows of the three input
  arrays as the region found them.
-/
import proofs.«152555_j79791902425338_2_alg».proof.Proof.Gen.KernelIdeal.Frame
import proofs.«152555_j79791902425338_2_alg».proof.Proof.LinPay
import proofs.«152555_j79791902425338_2_alg».proof.Proof.RowsSpec
import Idealize.ShloMosaic.Lib.Pipeline.Value

noncomputable section

namespace Mha.Lin

open Idealize.ShloMosaic Idealize.ShloMosaic.ValueIdx Idealize.ShloMosaic.TcCoe Idealize.SL.Sem
open Cert.KernelIdeal Cert.KernelIdeal.Gen
open Idealize.ShloMosaic.Pipeline (Dat)

-- the buffers' contents when a region is entered
variable (V : (c : Dev nD) → (b : Ref sig .tc) → Buf (Elt Ideal) ((c : Thread nD τ).loc b))

/-- The zero offsets of a whole-block access, however they are spelt. -/
theorem hz : (![0, 0] : Fin 2 → Nat) = fun _ => 0 := funext fun a => by fin_cases a <;> rfl

/-! ## Region 0: activations `main_v12`, weight `main_v1`, bias row `main_v8`, output `main_v13` -/

/-- The arrays region 0's four windows move over. -/
theorem arrRef0_0 : Pipeline.arrRef spec0 0 = main_v12 := rfl
theorem arrRef0_1 : Pipeline.arrRef spec0 1 = main_v1 := rfl
theorem arrRef0_2 : Pipeline.arrRef spec0 2 = main_v8 := rfl
theorem arrRef0_3 : Pipeline.arrRef spec0 3 = main_v13 := rfl

/-- The block indices at point t: (t, 0) for the activations and the output, (0, 0) for the weight and the bias row. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer on rows of the arrays as the region found them. -/
theorem flushed0_eq (c : Dev nD) (t : Fin cfg0.N) :
    (dat0 (F := Ideal) V c).flushed 3 t
      = ((cfg0.win 3).blk t).view.read (Elt Ideal) (Mha.rowsDense (V c main_v12) (V c main_v1) (V c main_v8)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1x1024) hz]
  funext j
  obtain ⟨e00, e01, e10, e11, e20, e21, e30, e31⟩ := idx_facts0 t
  show k0_pay1 (F := Ideal) (iblk0 V c 0 t) (iblk0 V c 1 t) (iblk0 V c 2 t) j
      = Mha.rowsDense (V c main_v12) (V c main_v1) (V c main_v8) (((cfg0.win 3).blk t).view.emb j)
  refine pay0_rows (V c main_v12) (V c main_v1) (V c main_v8) (iblk0 V c 0 t) (iblk0 V c 1 t) (iblk0 V c 2 t) j
    (((cfg0.win 3).blk t).view.emb j) (fun d => ?_) (fun d => ?_) ?_
  · -- the activations' block row is the output's block row; its column d is the array's column d
    show V c main_v12 (((cfg0.win 0).blk t).view.emb (ix2 (j 0) d))
        = V c main_v12 (ix2 ((((cfg0.win 3).blk t).view.emb j) 0) d)
    refine congrArg _ (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * d.val = d.val; omega
  · -- the weight is read whole: its row d, and the output's column
    show V c main_v1 (((cfg0.win 1).blk t).view.emb (ix2 d (j 1)))
        = V c main_v1 (ix2 d ((((cfg0.win 3).blk t).view.emb j) 1))
    refine congrArg _ (funext fun a => Fin.ext ?_)
    match a with
    | ⟨0, _⟩ => show win0_1.index t (0 : Fin 2) * 1024 + 1 * d.val = d.val; omega
    | ⟨1, _⟩ => show win0_1.index t (1 : Fin 2) * 1024 + 1 * (j 1).val = win0_3.index t (1 : Fin 2) * 1024 + 1 * (j 1).val; omega
  · -- the bias row is read whole: its one row, and the output's column
    show V c main_v8 (((cfg0.win 2).blk t).view.emb (ix2 (0 : Fin 1) (j 1)))
        = V c main_v8 (ix2 (0 : Fin 1) ((((cfg0.win 3).blk t).view.emb j) 1))
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An index of the output array is in point t's block iff each coordinate is in the block's range on its axis. -/
theorem mem_blk0 (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v13).slice (win0_3.rect t)).set ↔ _
  rw [View.set_slice_whole, Rect.mem_set_unit]
  exact Iff.rfl

/-- Row r of the output lies in the block of point r / 1024: the eight blocks of 1024 rows tile the 8192 rows. -/
theorem cover0 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- Region 0 leaves in its output array the dense layer on rows of its three input arrays as it found them. -/
theorem final0 (c : Dev nD) :
    ((dat0 (F := Ideal) V c).arrAt 3 cfg0.N : Mha.SR.Idx → EReal)
      = Mha.rowsDense (V c main_v12) (V c main_v1) (V c main_v8) :=
  (dat0 (F := Ideal) V c).arrAt_eq_of_cover 3 (Mha.rowsDense (V c main_v12) (V c main_v1) (V c main_v8))
    (fun t _ => flushed0_eq V c t) cover0

/-! ## Region 1: activations `main_v15`, weight `main_v3`, bias row `main_v9`, output `main_v16` -/

/-- The arrays region 1's four windows move over. -/
theorem arrRef1_0 : Pipeline.arrRef spec1 0 = main_v15 := rfl
theorem arrRef1_1 : Pipeline.arrRef spec1 1 = main_v3 := rfl
theorem arrRef1_2 : Pipeline.arrRef spec1 2 = main_v9 := rfl
theorem arrRef1_3 : Pipeline.arrRef spec1 3 = main_v16 := rfl

/-- The block indices at point t: (t, 0) for the activations and the output, (0, 0) for the weight and the bias row. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the dense layer on rows of the arrays as the region found them. -/
theorem flushed1_eq (c : Dev nD) (t : Fin cfg1.N) :
    (dat1 (F := Ideal) V c).flushed 3 t
      = ((cfg1.win 3).blk t).view.read (Elt Ideal) (Mha.rowsDense (V c main_v15) (V c main_v3) (V c main_v9)) := by
  show (cfg1.win 3).cut (grid1.coords t) ((dat1 V c).after 3 t) = _
  rw [after1_3]
  unfold out1_3
  rw [View.canon_unit_zero hz]
  simp only [View.ld_unit_zero (S := S1024x1024) hz, View.ld_unit_zero (S := S1x1024) hz]
  funext j
  obtain ⟨e00, e01, e10, e11, e20, e21, e30, e31⟩ := idx_facts1 t
  show k1_pay1 (F := Ideal) (iblk1 V c 0 t) (iblk1 V c 1 t) (iblk1 V c 2 t) j
      = Mha.rowsDense (V c main_v15) (V c main_v3) (V c main_v9) (((cfg1.win 3).blk t).view.emb j)
  refine pay1_rows (V c main_v15) (V c main_v3) (V c main_v9) (iblk1 V c 0 t) (iblk1 V c 1 t) (iblk1 V c 2 t) j
    (((cfg1.win 3).blk t).view.emb j) (fun d => ?_) (fun d => ?_) ?_
  · -- the activations' block row is the output's block row; its column d is the array's column d
    show V c main_v15 (((cfg1.win 0).blk t).view.emb (ix2 (j 0) d))
        = V c main_v15 (ix2 ((((cfg1.win 3).blk t).view.emb j) 0) d)
    refine congrArg _ (funext fun a => Fin.ext ?_)
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 1024 + 1 * d.val = d.val; omega
  · -- the weight is read whole: its row d, and the output's column
    show V c main_v3 (((cfg1.win 1).blk t).view.emb (ix2 d (j 1)))
        = V c main_v3 (ix2 d ((((cfg1.win 3).blk t).view.emb j) 1))
    refine congrArg _ (funext fun a => Fin.ext ?_)
    match a with
    | ⟨0, _⟩ => show win1_1.index t (0 : Fin 2) * 1024 + 1 * d.val = d.val; omega
    | ⟨1, _⟩ => show win1_1.index t (1 : Fin 2) * 1024 + 1 * (j 1).val = win1_3.index t (1 : Fin 2) * 1024 + 1 * (j 1).val; omega
  · -- the bias row is read whole: its one row, and the output's column
    show V c main_v9 (((cfg1.win 2).blk t).view.emb (ix2 (0 : Fin 1) (j 1)))
        = V c main_v9 (ix2 (0 : Fin 1) ((((cfg1.win 3).blk t).view.emb j) 1))
    refine congrArg _ (funext fun a => Fin.ext ?_)
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega

/-- An index of the output array is in point t's block iff each coordinate is in the block's range on its axis. -/
theorem mem_blk1 (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v16).slice (win1_3.rect t)).set ↔ _
  rw [View.set_slice_whole, Rect.mem_set_unit]
  exact Iff.rfl

/-- Row r of the output lies in the block of point r / 1024: the eight blocks of 1024 rows tile the 8192 rows. -/
theorem cover1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 8 := N_1
  obtain ⟨t, ht⟩ : ∃ t : Fin cfg1.N, t.val = (i 0).val / 1024 := ⟨⟨(i 0).val / 1024, by rw [hN]; omega⟩, rfl⟩
  obtain ⟨-, -, -, -, -, -, e30, e31⟩ := idx_facts1 t
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- Region 1 leaves in its output array the dense layer on rows of its three input arrays as it found them. -/
theorem final1 (c : Dev nD) :
    ((dat1 (F := Ideal) V c).arrAt 3 cfg1.N : Mha.SR.Idx → EReal)
      = Mha.rowsDense (V c main_v15) (V c main_v3) (V c main_v9) :=
  (dat1 (F := Ideal) V c).arrAt_eq_of_cover 3 (Mha.rowsDense (V c main_v15) (V c main_v3) (V c main_v9))
    (fun t _ => flushed1_eq V c t) cover1

/-! ## Region 2: activations `main_v18`, weight `main_v5`, bias row `main_v10`, output `main_v19` -/

/-- The arrays region 2's four windows move over. -/
theorem arrRef2_0 : Pipeline.arrRef spec2 0 = main_v18 := rfl
theorem arrRef2_1 : Pipeline.arrRef spec2 1 = main_v5 := rfl
theorem arrRef2_2 : Pipeline.arrRef spec2 2 = main_v10 := rfl
theorem arrRef2_3 : Pipeline.arrRef spec2 3 = main_v19 := rfl

/-- The block indices at point t: (t, 0) for the activations and the output, (0, 0) for the weight and the bias row. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the dense layer on rows of the arrays as the region found them. -/
theorem flushed2_eq (c : Dev nD) (t : Fin cfg2.N) :
    (dat2 (F := Ideal) V c).flushed 3 t
      = ((cfg2.win 3).blk t).view.read (Elt Ideal) (Mha.rowsDense (V c main_v18) (V c main_v5) (V c main_v10)) := by
  show (cfg2.win 3).cut (grid2.coords t) ((dat2 V c).after 3 t) = _
  rw [after2_3]
  unfold out2_3
  rw [View.canon_unit_zero hz]
  simp only [View.ld_unit_zero (S := S1024x1024) hz, View.ld_unit_zero (S := S1x1024) hz]
  funext j
  obtain ⟨e00, e01, e10, e11, e20, e21, e30, e31⟩ := idx_facts2 t
  show k2_pay1 (F := Ideal) (iblk2 V c 0 t) (iblk2 V c 1 t) (iblk2 V c 2 t) j
      = Mha.rowsDense (V c main_v18) (V c main_v5) (V c main_v10) (((cfg2.win 3).blk t).view.emb j)
  refine pay2_rows (V c main_v18) (V c main_v5) (V c main_v10) (iblk2 V c 0 t) (iblk2 V c 1 t) (iblk2 V c 2 t) j
    (((cfg2.win 3).blk t).view.emb j) (fun d => ?_) (fun d => ?_) ?_
  · -- the activations' block row is the output's block row; its column d is the array's column d
    show V c main_v18 (((cfg2.win 0).blk t).view.emb (ix2 (j 0) d))
        = V c main_v18 (ix2 ((((cfg2.win 3).blk t).view.emb j) 0) d)
    refine congrArg _ (funext fun a => Fin.ext ?_)
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 1024 + 1 * d.val = d.val; omega
  · -- the weight is read whole: its row d, and the output's column
    show V c main_v5 (((cfg2.win 1).blk t).view.emb (ix2 d (j 1)))
        = V c main_v5 (ix2 d ((((cfg2.win 3).blk t).view.emb j) 1))
    refine congrArg _ (funext fun a => Fin.ext ?_)
    match a with
    | ⟨0, _⟩ => show win2_1.index t (0 : Fin 2) * 1024 + 1 * d.val = d.val; omega
    | ⟨1, _⟩ => show win2_1.index t (1 : Fin 2) * 1024 + 1 * (j 1).val = win2_3.index t (1 : Fin 2) * 1024 + 1 * (j 1).val; omega
  · -- the bias row is read whole: its one row, and the output's column
    show V c main_v10 (((cfg2.win 2).blk t).view.emb (ix2 (0 : Fin 1) (j 1)))
        = V c main_v10 (ix2 (0 : Fin 1) ((((cfg2.win 3).blk t).view.emb j) 1))
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

/-- An index of the output array is in point t's block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v19).slice (win2_3.rect t)).set ↔ _
  rw [View.set_slice_whole, Rect.mem_set_unit]
  exact Iff.rfl

/-- Row r of the output lies in the block of point r / 1024: the eight blocks of 1024 rows tile the 8192 rows. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- Region 2 leaves in its output array the dense layer on rows of its three input arrays as it found them. -/
theorem final2 (c : Dev nD) :
    ((dat2 (F := Ideal) V c).arrAt 3 cfg2.N : Mha.SR.Idx → EReal)
      = Mha.rowsDense (V c main_v18) (V c main_v5) (V c main_v10) :=
  (dat2 (F := Ideal) V c).arrAt_eq_of_cover 3 (Mha.rowsDense (V c main_v18) (V c main_v5) (V c main_v10))
    (fun t _ => flushed2_eq V c t) cover2

/-! ## Region 4: activations `main_v22`, weight `main_v7`, bias row `main_v11`, output `main_v23` -/

/-- The arrays region 4's four windows move over. -/
theorem arrRef4_0 : Pipeline.arrRef spec4 0 = main_v22 := rfl
theorem arrRef4_1 : Pipeline.arrRef spec4 1 = main_v7 := rfl
theorem arrRef4_2 : Pipeline.arrRef spec4 2 = main_v11 := rfl
theorem arrRef4_3 : Pipeline.arrRef spec4 3 = main_v23 := rfl

/-- The block indices at point t: (t, 0) for the activations and the output, (0, 0) for the weight and the bias row. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the dense layer on rows of the arrays as the region found them. -/
theorem flushed4_eq (c : Dev nD) (t : Fin cfg4.N) :
    (dat4 (F := Ideal) V c).flushed 3 t
      = ((cfg4.win 3).blk t).view.read (Elt Ideal) (Mha.rowsDense (V c main_v22) (V c main_v7) (V c main_v11)) := by
  show (cfg4.win 3).cut (grid4.coords t) ((dat4 V c).after 3 t) = _
  rw [after4_3]
  unfold out4_3
  rw [View.canon_unit_zero hz]
  simp only [View.ld_unit_zero (S := S1024x1024) hz, View.ld_unit_zero (S := S1x1024) hz]
  funext j
  obtain ⟨e00, e01, e10, e11, e20, e21, e30, e31⟩ := idx_facts4 t
  show k4_pay1 (F := Ideal) (iblk4 V c 0 t) (iblk4 V c 1 t) (iblk4 V c 2 t) j
      = Mha.rowsDense (V c main_v22) (V c main_v7) (V c main_v11) (((cfg4.win 3).blk t).view.emb j)
  refine pay4_rows (V c main_v22) (V c main_v7) (V c main_v11) (iblk4 V c 0 t) (iblk4 V c 1 t) (iblk4 V c 2 t) j
    (((cfg4.win 3).blk t).view.emb j) (fun d => ?_) (fun d => ?_) ?_
  · -- the activations' block row is the output's block row; its column d is the array's column d
    show V c main_v22 (((cfg4.win 0).blk t).view.emb (ix2 (j 0) d))
        = V c main_v22 (ix2 ((((cfg4.win 3).blk t).view.emb j) 0) d)
    refine congrArg _ (funext fun a => Fin.ext ?_)
    match a with
    | ⟨0, _⟩ => show win4_0.index t (0 : Fin 2) * 1024 + 1 * (j 0).val = win4_3.index t (0 : Fin 2) * 1024 + 1 * (j 0).val; omega
    | ⟨1, _⟩ => show win4_0.index t (1 : Fin 2) * 1024 + 1 * d.val = d.val; omega
  · -- the weight is read whole: its row d, and the output's column
    show V c main_v7 (((cfg4.win 1).blk t).view.emb (ix2 d (j 1)))
        = V c main_v7 (ix2 d ((((cfg4.win 3).blk t).view.emb j) 1))
    refine congrArg _ (funext fun a => Fin.ext ?_)
    match a with
    | ⟨0, _⟩ => show win4_1.index t (0 : Fin 2) * 1024 + 1 * d.val = d.val; omega
    | ⟨1, _⟩ => show win4_1.index t (1 : Fin 2) * 1024 + 1 * (j 1).val = win4_3.index t (1 : Fin 2) * 1024 + 1 * (j 1).val; omega
  · -- the bias row is read whole: its one row, and the output's column
    show V c main_v11 (((cfg4.win 2).blk t).view.emb (ix2 (0 : Fin 1) (j 1)))
        = V c main_v11 (ix2 (0 : Fin 1) ((((cfg4.win 3).blk t).view.emb j) 1))
    refine congrArg _ (funext fun a => Fin.ext ?_)
    match a with
    | ⟨0, _⟩ => show win4_2.index t (0 : Fin 2) * 1 + 1 * 0 = 0; omega
    | ⟨1, _⟩ => show win4_2.index t (1 : Fin 2) * 1024 + 1 * (j 1).val = win4_3.index t (1 : Fin 2) * 1024 + 1 * (j 1).val; omega

/-- An index of the output array is in point t's block iff each coordinate is in the block's range on its axis. -/
theorem mem_blk4 (t : Fin cfg4.N) (i : S8192x1024.Idx) :
    i ∈ ((cfg4.win 3).blk t).view.set ↔ ∀ a : Fin 2, win4_3.index t a * S1024x1024.size a ≤ (i a).val
      ∧ (i a).val < win4_3.index t a * S1024x1024.size a + S1024x1024.size a := by
  show i ∈ ((View.whole main_v23).slice (win4_3.rect t)).set ↔ _
  rw [View.set_slice_whole, Rect.mem_set_unit]
  exact Iff.rfl

/-- Row r of the output lies in the block of point r / 1024: the eight blocks of 1024 rows tile the 8192 rows. -/
theorem cover4 (i : S8192x1024.Idx) :
    ∃ t : Fin cfg4.N, (cfg4.win 3).flush t = true ∧ i ∈ ((cfg4.win 3).blk t).view.set := by
  have hi0 : (i 0).val < 8192 := (i 0).isLt
  have hi1 : (i 1).val < 1024 := (i 1).isLt
  have hN : cfg4.N = 8 := N_4
  obtain ⟨t, ht⟩ : ∃ t : Fin cfg4.N, t.val = (i 0).val / 1024 := ⟨⟨(i 0).val / 1024, by rw [hN]; omega⟩, rfl⟩
  obtain ⟨-, -, -, -, -, -, e30, e31⟩ := idx_facts4 t
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 1024 ≤ (i 1).val ∧ (i 1).val < win4_3.index t (1 : Fin 2) * 1024 + 1024; omega

/-- Region 4 leaves in its output array the dense layer on rows of its three input arrays as it found them. -/
theorem final4 (c : Dev nD) :
    ((dat4 (F := Ideal) V c).arrAt 3 cfg4.N : Mha.SR.Idx → EReal)
      = Mha.rowsDense (V c main_v22) (V c main_v7) (V c main_v11) :=
  (dat4 (F := Ideal) V c).arrAt_eq_of_cover 3 (Mha.rowsDense (V c main_v22) (V c main_v7) (V c main_v11))
    (fun t _ => flushed4_eq V c t) cover4

end Mha.Lin

end
-- ==== Proof.ChainLookups.lean ====
/-
  What each region of the kernel finds in its arrays, and what the program returns.

  The kernel's program is five pipelined regions among stretches of layout operations. The buffer contents at each
  boundary are a fold from the launch memory: a stretch overwrites the buffers it computes and leaves the others, a
  region replaces its result array by what its write-backs leave and leaves every buffer that is not one of its four
  arrays. Reading the fold at one buffer therefore walks back, boundary by boundary, to the stretch that wrote it:

    * regions 0, 1, 2 (the query, key and value projections) read an activation argument flattened to [8192, 1024]
      rows, a weight argument transposed, and a bias argument as a [1, 1024] row;
    * region 3 (attention) reads the three projections' results, each reshaped back to [4, 2048, 1024];
    * region 4 (the output projection) reads region 3's result flattened to rows, the output weight transposed and the
      output bias as a row;
    * the program's result is region 4's result reshaped to [4, 2048, 1024].

  All weights and biases are prepared by the first stretch, so the later regions' lookups pass through the regions
  and stretches in between, none of which writes them.
-/
import proofs.«152555_j79791902425338_2_alg».proof.Proof.Gen.KernelIdeal.Frame
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- Region 0 reads the query activations flattened to rows. -/
theorem in_0_x :
    (W1 m ρ c (Proc.devRef .tc main_v12) : S8192x1024.Idx → EReal)
      = shapeCast S8192x1024 (m ((c : Thread nD τ).loc main_arg0)) shapeCasts_S4x2048x1024_S8192x1024 := by
  dsimp only [W1, hostOps0]; after_results <;> rfl

/-- Region 0 reads the query weight transposed. -/
theorem in_0_w :
    (W1 m ρ c (Proc.devRef .tc main_v1) : S1024x1024.Idx → EReal)
      = truncf (F := Ideal) .bf16 (transpose S1024x1024 [1, 0] (m ((c : Thread nD τ).loc main_arg3)) transposes_S1024x1024_S1024x1024_1_0) bitsLt_bf16_f32 := by
  dsimp only [W1, hostOps0]; after_results <;> rfl

/-- Region 0 reads the query bias as one row. -/
theorem in_0_b :
    (W1 m ρ c (Proc.devRef .tc main_v8) : S1x1024.Idx → EReal)
      = shapeCast S1x1024 (m ((c : Thread nD τ).loc main_arg4)) shapeCasts_S1024_S1x1024 := by
  dsimp only [W1, hostOps0]; after_results <;> rfl

/-- After the first stretch: the key weight transposed. -/
theorem w1_k :
    (W1 m ρ c (Proc.devRef .tc main_v3) : S1024x1024.Idx → EReal)
      = truncf (F := Ideal) .bf16 (transpose S1024x1024 [1, 0] (m ((c : Thread nD τ).loc main_arg5)) transposes_S1024x1024_S1024x1024_1_0) bitsLt_bf16_f32 := by
  dsimp only [W1, hostOps0]; after_results <;> rfl

/-- After the first stretch: the key bias as one row. -/
theorem b1_k :
    (W1 m ρ c (Proc.devRef .tc main_v9) : S1x1024.Idx → EReal)
      = shapeCast S1x1024 (m ((c : Thread nD τ).loc main_arg6)) shapeCasts_S1024_S1x1024 := by
  dsimp only [W1, hostOps0]; after_results <;> rfl

/-- After the first stretch: the value weight transposed. -/
theorem w1_v :
    (W1 m ρ c (Proc.devRef .tc main_v5) : S1024x1024.Idx → EReal)
      = truncf (F := Ideal) .bf16 (transpose S1024x1024 [1, 0] (m ((c : Thread nD τ).loc main_arg7)) transposes_S1024x1024_S1024x1024_1_0) bitsLt_bf16_f32 := by
  dsimp only [W1, hostOps0]; after_results <;> rfl

/-- After the first stretch: the value bias as one row. -/
theorem b1_v :
    (W1 m ρ c (Proc.devRef .tc main_v10) : S1x1024.Idx → EReal)
      = shapeCast S1x1024 (m ((c : Thread nD τ).loc main_arg8)) shapeCasts_S1024_S1x1024 := by
  dsimp only [W1, hostOps0]; after_results <;> rfl

/-- After the first stretch: the output weight transposed. -/
theorem w1_o :
    (W1 m ρ c (Proc.devRef .tc main_v7) : S1024x1024.Idx → EReal)
      = truncf (F := Ideal) .bf16 (transpose S1024x1024 [1, 0] (m ((c : Thread nD τ).loc main_arg9)) transposes_S1024x1024_S1024x1024_1_0) bitsLt_bf16_f32 := by
  dsimp only [W1, hostOps0]; after_results <;> rfl

/-- After the first stretch: the output bias as one row. -/
theorem b1_o :
    (W1 m ρ c (Proc.devRef .tc main_v11) : S1x1024.Idx → EReal)
      = shapeCast S1x1024 (m ((c : Thread nD τ).loc main_arg10)) shapeCasts_S1024_S1x1024 := by
  dsimp only [W1, hostOps0]; after_results <;> rfl

/-- The key activations are untouched up to region 0's exit. -/
theorem arg1_at_2 :
    W2 m ρ c (Proc.devRef .tc main_arg1) = m ((c : Thread nD τ).loc main_arg1) := by
  have h2 := W2_of_ne m ρ c main_arg1 (by decide)
  have h1 : W1 m ρ c (Proc.devRef .tc main_arg1) = W0 m ρ c (Proc.devRef .tc main_arg1) := by
    dsimp only [W1, hostOps0]; after_results <;> rfl
  rw [h2, h1]

/-- The value activations are untouched up to region 1's exit. -/
theorem arg2_at_4 :
    W4 m ρ c (Proc.devRef .tc main_arg2) = m ((c : Thread nD τ).loc main_arg2) := by
  have h4 := W4_of_ne m ρ c main_arg2 (by decide)
  have h3 : W3 m ρ c (Proc.devRef .tc main_arg2) = W2 m ρ c (Proc.devRef .tc main_arg2) := by
    dsimp only [W3, hostOps1]; after_results <;> rfl
  have h2 := W2_of_ne m ρ c main_arg2 (by decide)
  have h1 : W1 m ρ c (Proc.devRef .tc main_arg2) = W0 m ρ c (Proc.devRef .tc main_arg2) := by
    dsimp only [W1, hostOps0]; after_results <;> rfl
  rw [h4, h3, h2, h1]

/-- Region 1 reads the key activations flattened to rows. -/
theorem in_1_x :
    (W3 m ρ c (Proc.devRef .tc main_v15) : S8192x1024.Idx → EReal)
      = shapeCast S8192x1024 (m ((c : Thread nD τ).loc main_arg1)) shapeCasts_S4x2048x1024_S8192x1024 := by
  have h : (W3 m ρ c (Proc.devRef .tc main_v15) : S8192x1024.Idx → EReal)
      = shapeCast S8192x1024 (W2 m ρ c (Proc.devRef .tc main_arg1)) shapeCasts_S4x2048x1024_S8192x1024 := by
    dsimp only [W3, hostOps1]; after_results <;> rfl
  rw [h, arg1_at_2]

/-- Region 1 reads the key weight transposed. -/
theorem in_1_w :
    (W3 m ρ c (Proc.devRef .tc main_v3) : S1024x1024.Idx → EReal)
      = truncf (F := Ideal) .bf16 (transpose S1024x1024 [1, 0] (m ((c : Thread nD τ).loc main_arg5)) transposes_S1024x1024_S1024x1024_1_0) bitsLt_bf16_f32 := by
  have h3 : W3 m ρ c (Proc.devRef .tc main_v3) = W2 m ρ c (Proc.devRef .tc main_v3) := by
    dsimp only [W3, hostOps1]; after_results <;> rfl
  have h2 := W2_of_ne m ρ c main_v3 (by decide)
  rw [h3, h2]
  exact w1_k m ρ c

/-- Region 1 reads the key bias as one row. -/
theorem in_1_b :
    (W3 m ρ c (Proc.devRef .tc main_v9) : S1x1024.Idx → EReal)
      = shapeCast S1x1024 (m ((c : Thread nD τ).loc main_arg6)) shapeCasts_S1024_S1x1024 := by
  have h3 : W3 m ρ c (Proc.devRef .tc main_v9) = W2 m ρ c (Proc.devRef .tc main_v9) := by
    dsimp only [W3, hostOps1]; after_results <;> rfl
  have h2 := W2_of_ne m ρ c main_v9 (by decide)
  rw [h3, h2]
  exact b1_k m ρ c

/-- Region 2 reads the value activations flattened to rows. -/
theorem in_2_x :
    (W5 m ρ c (Proc.devRef .tc main_v18) : S8192x1024.Idx → EReal)
      = shapeCast S8192x1024 (m ((c : Thread nD τ).loc main_arg2)) shapeCasts_S4x2048x1024_S8192x1024 := by
  have h : (W5 m ρ c (Proc.devRef .tc main_v18) : S8192x1024.Idx → EReal)
      = shapeCast S8192x1024 (W4 m ρ c (Proc.devRef .tc main_arg2)) shapeCasts_S4x2048x1024_S8192x1024 := by
    dsimp only [W5, hostOps2]; after_results <;> rfl
  rw [h, arg2_at_4]

/-- Region 2 reads the value weight transposed. -/
theorem in_2_w :
    (W5 m ρ c (Proc.devRef .tc main_v5) : S1024x1024.Idx → EReal)
      = truncf (F := Ideal) .bf16 (transpose S1024x1024 [1, 0] (m ((c : Thread nD τ).loc main_arg7)) transposes_S1024x1024_S1024x1024_1_0) bitsLt_bf16_f32 := by
  have h5 : W5 m ρ c (Proc.devRef .tc main_v5) = W4 m ρ c (Proc.devRef .tc main_v5) := by
    dsimp only [W5, hostOps2]; after_results <;> rfl
  have h4 := W4_of_ne m ρ c main_v5 (by decide)
  have h3 : W3 m ρ c (Proc.devRef .tc main_v5) = W2 m ρ c (Proc.devRef .tc main_v5) := by
    dsimp only [W3, hostOps1]; after_results <;> rfl
  have h2 := W2_of_ne m ρ c main_v5 (by decide)
  rw [h5, h4, h3, h2]
  exact w1_v m ρ c

/-- Region 2 reads the value bias as one row. -/
theorem in_2_b :
    (W5 m ρ c (Proc.devRef .tc main_v10) : S1x1024.Idx → EReal)
      = shapeCast S1x1024 (m ((c : Thread nD τ).loc main_arg8)) shapeCasts_S1024_S1x1024 := by
  have h5 : W5 m ρ c (Proc.devRef .tc main_v10) = W4 m ρ c (Proc.devRef .tc main_v10) := by
    dsimp only [W5, hostOps2]; after_results <;> rfl
  have h4 := W4_of_ne m ρ c main_v10 (by decide)
  have h3 : W3 m ρ c (Proc.devRef .tc main_v10) = W2 m ρ c (Proc.devRef .tc main_v10) := by
    dsimp only [W3, hostOps1]; after_results <;> rfl
  have h2 := W2_of_ne m ρ c main_v10 (by decide)
  rw [h5, h4, h3, h2]
  exact b1_v m ρ c

/-- Region 3 reads region 0's result (the projected queries) as a [4, 2048, 1024] array. -/
theorem in_3_q :
    (W7 m ρ c (Proc.devRef .tc main_v14) : S4x2048x1024.Idx → EReal)
      = shapeCast S4x2048x1024 (W2 m ρ c (Proc.devRef .tc main_v13)) shapeCasts_S8192x1024_S4x2048x1024 := by
  have h7 : W7 m ρ c (Proc.devRef .tc main_v14) = W6 m ρ c (Proc.devRef .tc main_v14) := by
    dsimp only [W7, hostOps3]; after_results <;> rfl
  have h6 := W6_of_ne m ρ c main_v14 (by decide)
  have h5 : W5 m ρ c (Proc.devRef .tc main_v14) = W4 m ρ c (Proc.devRef .tc main_v14) := by
    dsimp only [W5, hostOps2]; after_results <;> rfl
  have h4 := W4_of_ne m ρ c main_v14 (by decide)
  rw [h7, h6, h5, h4]
  dsimp only [W3, hostOps1]; after_results <;> rfl

/-- Region 3 reads region 1's result (the projected keys) as a [4, 2048, 1024] array. -/
theorem in_3_k :
    (W7 m ρ c (Proc.devRef .tc main_v17) : S4x2048x1024.Idx → EReal)
      = shapeCast S4x2048x1024 (W4 m ρ c (Proc.devRef .tc main_v16)) shapeCasts_S8192x1024_S4x2048x1024 := by
  have h7 : W7 m ρ c (Proc.devRef .tc main_v17) = W6 m ρ c (Proc.devRef .tc main_v17) := by
    dsimp only [W7, hostOps3]; after_results <;> rfl
  have h6 := W6_of_ne m ρ c main_v17 (by decide)
  rw [h7, h6]
  dsimp only [W5, hostOps2]; after_results <;> rfl

/-- Region 3 reads region 2's result (the projected values) as a [4, 2048, 1024] array. -/
theorem in_3_v :
    (W7 m ρ c (Proc.devRef .tc main_v20) : S4x2048x1024.Idx → EReal)
      = shapeCast S4x2048x1024 (W6 m ρ c (Proc.devRef .tc main_v19)) shapeCasts_S8192x1024_S4x2048x1024 := by
  dsimp only [W7, hostOps3]; after_results <;> rfl

/-- Region 4 reads region 3's result (the attended heads) flattened to rows. -/
theorem in_4_x :
    (W9 m ρ c (Proc.devRef .tc main_v22) : S8192x1024.Idx → EReal)
      = shapeCast S8192x1024 (W8 m ρ c (Proc.devRef .tc main_v21)) shapeCasts_S4x2048x1024_S8192x1024 := by
  dsimp only [W9, hostOps4]; after_results <;> rfl

/-- Region 4 reads the output weight transposed. -/
theorem in_4_w :
    (W9 m ρ c (Proc.devRef .tc main_v7) : S1024x1024.Idx → EReal)
      = truncf (F := Ideal) .bf16 (transpose S1024x1024 [1, 0] (m ((c : Thread nD τ).loc main_arg9)) transposes_S1024x1024_S1024x1024_1_0) bitsLt_bf16_f32 := by
  have h9 : W9 m ρ c (Proc.devRef .tc main_v7) = W8 m ρ c (Proc.devRef .tc main_v7) := by
    dsimp only [W9, hostOps4]; after_results <;> rfl
  have h8 := W8_of_ne m ρ c main_v7 (by decide)
  have h7 : W7 m ρ c (Proc.devRef .tc main_v7) = W6 m ρ c (Proc.devRef .tc main_v7) := by
    dsimp only [W7, hostOps3]; after_results <;> rfl
  have h6 := W6_of_ne m ρ c main_v7 (by decide)
  have h5 : W5 m ρ c (Proc.devRef .tc main_v7) = W4 m ρ c (Proc.devRef .tc main_v7) := by
    dsimp only [W5, hostOps2]; after_results <;> rfl
  have h4 := W4_of_ne m ρ c main_v7 (by decide)
  have h3 : W3 m ρ c (Proc.devRef .tc main_v7) = W2 m ρ c (Proc.devRef .tc main_v7) := by
    dsimp only [W3, hostOps1]; after_results <;> rfl
  have h2 := W2_of_ne m ρ c main_v7 (by decide)
  rw [h9, h8, h7, h6, h5, h4, h3, h2]
  exact w1_o m ρ c

/-- Region 4 reads the output bias as one row. -/
theorem in_4_b :
    (W9 m ρ c (Proc.devRef .tc main_v11) : S1x1024.Idx → EReal)
      = shapeCast S1x1024 (m ((c : Thread nD τ).loc main_arg10)) shapeCasts_S1024_S1x1024 := by
  have h9 : W9 m ρ c (Proc.devRef .tc main_v11) = W8 m ρ c (Proc.devRef .tc main_v11) := by
    dsimp only [W9, hostOps4]; after_results <;> rfl
  have h8 := W8_of_ne m ρ c main_v11 (by decide)
  have h7 : W7 m ρ c (Proc.devRef .tc main_v11) = W6 m ρ c (Proc.devRef .tc main_v11) := by
    dsimp only [W7, hostOps3]; after_results <;> rfl
  have h6 := W6_of_ne m ρ c main_v11 (by decide)
  have h5 : W5 m ρ c (Proc.devRef .tc main_v11) = W4 m ρ c (Proc.devRef .tc main_v11) := by
    dsimp only [W5, hostOps2]; after_results <;> rfl
  have h4 := W4_of_ne m ρ c main_v11 (by decide)
  have h3 : W3 m ρ c (Proc.devRef .tc main_v11) = W2 m ρ c (Proc.devRef .tc main_v11) := by
    dsimp only [W3, hostOps1]; after_results <;> rfl
  have h2 := W2_of_ne m ρ c main_v11 (by decide)
  rw [h9, h8, h7, h6, h5, h4, h3, h2]
  exact b1_o m ρ c

/-- The program's result is region 4's result as a [4, 2048, 1024] array. -/
theorem result_24 :
    (W11 m ρ c (Proc.devRef .tc main_v24) : S4x2048x1024.Idx → EReal)
      = shapeCast S4x2048x1024 (W10 m ρ c (Proc.devRef .tc main_v23)) shapeCasts_S8192x1024_S4x2048x1024 := by
  dsimp only [W11, hostOps5]; after_results <;> rfl

/-- Region 0's result array at the region's exit: what its write-backs leave. -/
theorem out_0 :
    W2 m ρ c (Proc.devRef .tc main_v13) = (dat0 (V1 m ρ) c).arrAt 3 cfg0.N :=
  W2_arr m ρ c 3

/-- Region 1's result array at the region's exit: what its write-backs leave. -/
theorem out_1 :
    W4 m ρ c (Proc.devRef .tc main_v16) = (dat1 (V3 m ρ) c).arrAt 3 cfg1.N :=
  W4_arr m ρ c 3

/-- Region 2's result array at the region's exit: what its write-backs leave. -/
theorem out_2 :
    W6 m ρ c (Proc.devRef .tc main_v19) = (dat2 (V5 m ρ) c).arrAt 3 cfg2.N :=
  W6_arr m ρ c 3

/-- Region 3's result array at the region's exit: what its write-backs leave. -/
theorem out_3 :
    W8 m ρ c (Proc.devRef .tc main_v21) = (dat3 (V7 m ρ) c).arrAt 3 cfg3.N :=
  W8_arr m ρ c 3

/-- Region 4's result array at the region's exit: what its write-backs leave. -/
theorem out_4 :
    W10 m ρ c (Proc.devRef .tc main_v23) = (dat4 (V9 m ρ) c).arrAt 3 cfg4.N :=
  W10_arr m ρ c 3

end Cert.KernelIdeal.Chain

end
-- ==== Proof.LayoutBridge.lean ====
/-
  The row-tiled dense layer is the dense layer.

  Flattening [4, 2048, 1024] to [8192, 1024] puts position s of batch n at row 2048 n + s; transposing the weight swaps
  its two axes; the bias becomes one row. So, read at (n, s, e), the flattened layer x̃ · Wᵀ + b̃ unflattened again is
  ∑ d, x (n, s, d) * W (e, d) + b e: the same sum, term by term. (A change of float format between the two is the
  identity at the ideal values.)
-/
import proofs.«152555_j79791902425338_2_alg».proof.Proof.Spec
import proofs.«152555_j79791902425338_2_alg».proof.Proof.RowsSpec
import Idealize.ShloMosaic.Lib.ValueIdx
import Idealize.ShloMosaic.Lib.ValueLayout
import Idealize.ShloMosaic.Lib.Pipeline.Value

noncomputable section

namespace Mha

open Idealize.ShloMosaic Idealize.ShloMosaic.ValueIdx

variable {α : Type}

/-- The row of the flattened array that holds position s of batch n. -/
def rowOf (n : Fin 4) (s : Fin 2048) : Fin 8192 := ⟨2048 * n.val + s.val, by omega⟩

/-- Flattened, the entry at (row of (n, s), d) is the entry at (n, s, d). -/
theorem flatten_apply (x : SX.Idx → α) (h : SX.ShapeCasts SR) (n : Fin 4) (s : Fin 2048) (d : Fin 1024) :
    shapeCast SR x h (ix2 (rowOf n s) d) = x (ix3 n s d) :=
  shapeCast_apply x h _ _ (by
    rw [Shape.rowMajor_val_three, Shape.rowMajor_val_two]
    show (n.val * 2048 + s.val) * 1024 + d.val = (2048 * n.val + s.val) * 1024 + d.val
    rw [Nat.mul_comm n.val 2048])

/-- Unflattened, the entry at (n, s, e) is the entry at (row of (n, s), e). -/
theorem unflatten_apply (y : SR.Idx → α) (h : SR.ShapeCasts SX) (n : Fin 4) (s : Fin 2048) (e : Fin 1024) :
    shapeCast SX y h (ix3 n s e) = y (ix2 (rowOf n s) e) :=
  shapeCast_apply y h _ _ (by
    rw [Shape.rowMajor_val_two, Shape.rowMajor_val_three]
    show (2048 * n.val + s.val) * 1024 + e.val = (n.val * 2048 + s.val) * 1024 + e.val
    rw [Nat.mul_comm n.val 2048])

/-- The flattened layer with the transposed weight and the bias row, unflattened, is the dense layer. -/
theorem rows_eq_dense (hφ : FTy.bf16.bits < FTy.f32.bits) (x : SX.Idx → EReal) (W : SW.Idx → EReal) (b : SB.Idx → EReal)
    (h1 : SX.ShapeCasts SR) (ht : SW.Transposes [1, 0] SWt) (h2 : SB.ShapeCasts SB1) (h3 : SR.ShapeCasts SX) :
    shapeCast SX (rowsDense (shapeCast SR x h1) (truncf (F := Ideal) (φ := .f32) .bf16 (transpose SWt [1, 0] W ht) hφ) (shapeCast SB1 b h2)) h3
      = dense x W b := by
  funext i
  obtain ⟨n, s, e, rfl⟩ : ∃ (n : Fin 4) (s : Fin 2048) (e : Fin 1024), i = ix3 n s e := ⟨i 0, i 1, i 2, eq_ix3 i⟩
  rw [unflatten_apply, rowsDense_apply, dense_apply]
  unfold rowsDenseAt denseAt
  refine congrArg₂ (· + ·) (Finset.sum_congr rfl fun d _ => ?_) ?_
  · rw [flatten_apply, truncf_apply, transpose_ix2_apply]
  · exact shapeCast_a_1a_apply b h2 (0 : Fin 1) e

end Mha

end
-- ==== Proof.KValue.lean ====
/-
  The kernel's result array is multi-head attention of its arguments.

  Walking the boundary contents of the run from the launch: the first stretch of host operations flattens the query
  activations, transposes each weight and makes each bias a row; region 0 leaves the flattened query projection, which
  the next stretch unflattens: by the layout of the flattened dense layer that array is Mha.dense of the launch arrays.
  Regions 1 and 2 do the same for keys and values. Region 3 leaves Mha.heads of the three projections, region 4 the
  flattened output projection of it, and the last stretch unflattens that: Mha.mha.
-/
import proofs.«152555_j79791902425338_2_alg».proof.Proof.Region3
import proofs.«152555_j79791902425338_2_alg».proof.Proof.LinRegion
import proofs.«152555_j79791902425338_2_alg».proof.Proof.ChainLookups
import proofs.«152555_j79791902425338_2_alg».proof.Proof.LayoutBridge
import proofs.«152555_j79791902425338_2_alg».proof.Proof.Spec

set_option maxRecDepth 16384

noncomputable section

namespace Cert.KernelIdeal.KValue

open Cert.KernelIdeal Cert.KernelIdeal.Gen Idealize.ShloMosaic Idealize.ShloMosaic.TcCoe
open Idealize.SL Idealize.SL.Sem

variable (m : (ℓ : Loc nD τ sig) → Buf (Elt Ideal) ℓ) (ρ : Dev nD → PrngReg) (c : Dev nD)

/-- The query projection, unflattened, as region 3 finds it. -/
theorem proj_q :
    (shapeCast S4x2048x1024 (W2 m ρ c (Proc.devRef .tc main_v13)) shapeCasts_S8192x1024_S4x2048x1024 : Mha.SX.Idx → EReal)
      = Mha.dense (m ((c : Thread nD τ).loc main_arg0)) (m ((c : Thread nD τ).loc main_arg3)) (m ((c : Thread nD τ).loc main_arg4)) := by
  have e : (W2 m ρ c (Proc.devRef .tc main_v13) : Mha.SR.Idx → EReal)
      = Mha.rowsDense (shapeCast S8192x1024 (m ((c : Thread nD τ).loc main_arg0)) shapeCasts_S4x2048x1024_S8192x1024)
          (truncf (F := Ideal) .bf16 (transpose S1024x1024 [1, 0] (m ((c : Thread nD τ).loc main_arg3)) transposes_S1024x1024_S1024x1024_1_0) bitsLt_bf16_f32)
          (shapeCast S1x1024 (m ((c : Thread nD τ).loc main_arg4)) shapeCasts_S1024_S1x1024) := by
    refine (Chain.out_0 m ρ c).trans ((Mha.Lin.final0 (V1 m ρ) c).trans ?_)
    show Mha.rowsDense (W1 m ρ c (Proc.devRef .tc main_v12)) (W1 m ρ c (Proc.devRef .tc main_v1)) (W1 m ρ c (Proc.devRef .tc main_v8)) = _
    rw [Chain.in_0_x m ρ c, Chain.in_0_w m ρ c, Chain.in_0_b m ρ c]
  rw [e]
  exact Mha.rows_eq_dense _ _ _ _ _ _ _ _

/-- The key projection, unflattened. -/
theorem proj_k :
    (shapeCast S4x2048x1024 (W4 m ρ c (Proc.devRef .tc main_v16)) shapeCasts_S8192x1024_S4x2048x1024 : Mha.SX.Idx → EReal)
      = Mha.dense (m ((c : Thread nD τ).loc main_arg1)) (m ((c : Thread nD τ).loc main_arg5)) (m ((c : Thread nD τ).loc main_arg6)) := by
  have e : (W4 m ρ c (Proc.devRef .tc main_v16) : Mha.SR.Idx → EReal)
      = Mha.rowsDense (shapeCast S8192x1024 (m ((c : Thread nD τ).loc main_arg1)) shapeCasts_S4x2048x1024_S8192x1024)
          (truncf (F := Ideal) .bf16 (transpose S1024x1024 [1, 0] (m ((c : Thread nD τ).loc main_arg5)) transposes_S1024x1024_S1024x1024_1_0) bitsLt_bf16_f32)
          (shapeCast S1x1024 (m ((c : Thread nD τ).loc main_arg6)) shapeCasts_S1024_S1x1024) := by
    refine (Chain.out_1 m ρ c).trans ((Mha.Lin.final1 (V3 m ρ) c).trans ?_)
    show Mha.rowsDense (W3 m ρ c (Proc.devRef .tc main_v15)) (W3 m ρ c (Proc.devRef .tc main_v3)) (W3 m ρ c (Proc.devRef .tc main_v9)) = _
    rw [Chain.in_1_x m ρ c, Chain.in_1_w m ρ c, Chain.in_1_b m ρ c]
  rw [e]
  exact Mha.rows_eq_dense _ _ _ _ _ _ _ _

/-- The value projection, unflattened. -/
theorem proj_v :
    (shapeCast S4x2048x1024 (W6 m ρ c (Proc.devRef .tc main_v19)) shapeCasts_S8192x1024_S4x2048x1024 : Mha.SX.Idx → EReal)
      = Mha.dense (m ((c : Thread nD τ).loc main_arg2)) (m ((c : Thread nD τ).loc main_arg7)) (m ((c : Thread nD τ).loc main_arg8)) := by
  have e : (W6 m ρ c (Proc.devRef .tc main_v19) : Mha.SR.Idx → EReal)
      = Mha.rowsDense (shapeCast S8192x1024 (m ((c : Thread nD τ).loc main_arg2)) shapeCasts_S4x2048x1024_S8192x1024)
          (truncf (F := Ideal) .bf16 (transpose S1024x1024 [1, 0] (m ((c : Thread nD τ).loc main_arg7)) transposes_S1024x1024_S1024x1024_1_0) bitsLt_bf16_f32)
          (shapeCast S1x1024 (m ((c : Thread nD τ).loc main_arg8)) shapeCasts_S1024_S1x1024) := by
    refine (Chain.out_2 m ρ c).trans ((Mha.Lin.final2 (V5 m ρ) c).trans ?_)
    show Mha.rowsDense (W5 m ρ c (Proc.devRef .tc main_v18)) (W5 m ρ c (Proc.devRef .tc main_v5)) (W5 m ρ c (Proc.devRef .tc main_v10)) = _
    rw [Chain.in_2_x m ρ c, Chain.in_2_w m ρ c, Chain.in_2_b m ρ c]
  rw [e]
  exact Mha.rows_eq_dense _ _ _ _ _ _ _ _

/-- The attention region's output: all heads of the three projections. -/
theorem attended :
    (W8 m ρ c (Proc.devRef .tc main_v21) : Mha.SX.Idx → EReal)
      = Mha.heads
          (Mha.dense (m ((c : Thread nD τ).loc main_arg0)) (m ((c : Thread nD τ).loc main_arg3)) (m ((c : Thread nD τ).loc main_arg4)))
          (Mha.dense (m ((c : Thread nD τ).loc main_arg1)) (m ((c : Thread nD τ).loc main_arg5)) (m ((c : Thread nD τ).loc main_arg6)))
          (Mha.dense (m ((c : Thread nD τ).loc main_arg2)) (m ((c : Thread nD τ).loc main_arg7)) (m ((c : Thread nD τ).loc main_arg8))) := by
  refine (Chain.out_3 m ρ c).trans ((Region3.final3 (V7 m ρ) c).trans ?_)
  show Mha.heads (W7 m ρ c (Proc.devRef .tc main_v14)) (W7 m ρ c (Proc.devRef .tc main_v17)) (W7 m ρ c (Proc.devRef .tc main_v20)) = _
  rw [Chain.in_3_q m ρ c, Chain.in_3_k m ρ c, Chain.in_3_v m ρ c, proj_q m ρ c, proj_k m ρ c, proj_v m ρ c]

/-- The result array: multi-head attention of the argument arrays. -/
theorem result_is_mha :
    W11 m ρ c (Proc.devRef .tc main_v24)
      = Mha.mha (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  have e : (W10 m ρ c (Proc.devRef .tc main_v23) : Mha.SR.Idx → EReal)
      = Mha.rowsDense (shapeCast S8192x1024 (W8 m ρ c (Proc.devRef .tc main_v21)) shapeCasts_S4x2048x1024_S8192x1024)
          (truncf (F := Ideal) .bf16 (transpose S1024x1024 [1, 0] (m ((c : Thread nD τ).loc main_arg9)) transposes_S1024x1024_S1024x1024_1_0) bitsLt_bf16_f32)
          (shapeCast S1x1024 (m ((c : Thread nD τ).loc main_arg10)) shapeCasts_S1024_S1x1024) := by
    refine (Chain.out_4 m ρ c).trans ((Mha.Lin.final4 (V9 m ρ) c).trans ?_)
    show Mha.rowsDense (W9 m ρ c (Proc.devRef .tc main_v22)) (W9 m ρ c (Proc.devRef .tc main_v7)) (W9 m ρ c (Proc.devRef .tc main_v11)) = _
    rw [Chain.in_4_x m ρ c, Chain.in_4_w m ρ c, Chain.in_4_b m ρ c]
  refine (Chain.result_24 m ρ c).trans ?_
  rw [e, attended m ρ c]
  exact Mha.rows_eq_dense _ _ _ _ _ _ _ _

end Cert.KernelIdeal.KValue

end
-- ==== Proof.RefProj.lean ====
/-
  The reference's three input projections, read at an index.

  Each of the query, key and value activations goes through the same six steps: a product with the transposed weight
  (the feature axis contracted against the weight's second axis), a bias broadcast along batch and position, a sum, a
  reshape of the 1024 features into 16 heads of 64 lanes, and a transpose that brings the head axis in front of the
  position axis. Read at (batch n, head h, position s, lane d) the result is the dense layer at (n, s, feature 64 h + d):
  a reshape keeps the row-major position, and ((n·2048 + s)·16 + h)·64 + d = (n·2048 + s)·1024 + (64 h + d).
-/
import proofs.«152555_j79791902425338_2_alg».proof.Proof.Gen.ReferenceIdeal.Read
import proofs.«152555_j79791902425338_2_alg».proof.Proof.Spec

noncomputable section

namespace Cert.ReferenceIdeal.RefValue

open Cert.ReferenceIdeal Cert.ReferenceIdeal.Read Idealize.ShloMosaic Idealize.ShloMosaic.ValueIdx

/-- Undoing the transpose and the reshape on an index: (n, h, s, d) of the [4,16,2048,64] array is (n, s, 64 h + d) of
    the [4,2048,1024] one. -/
theorem split_heads_idx (n : Fin 4) (h : Fin 16) (s : Fin 2048) (d : Fin 64) :
    idx_main_v4 (idx_main_v5 (ix4 n h s d)) = ix3 n s (Mha.feat h d) := by
  funext a
  apply Fin.ext
  have hn := n.isLt
  have hh := h.isLt
  have hs := s.isLt
  have hd := d.isLt
  match a with
  | ⟨0, _⟩ => show (((n.val * 2048 + s.val) * 16 + h.val) * 64 + d.val) / 2097152 = n.val; omega
  | ⟨1, _⟩ => show (((n.val * 2048 + s.val) * 16 + h.val) * 64 + d.val) / 1024 % 2048 = s.val; omega
  | ⟨2, _⟩ => show (((n.val * 2048 + s.val) * 16 + h.val) * 64 + d.val) % 1024 = 64 * h.val + d.val; omega

/-- The query projection: the product with the transposed weight plus the bias, at (n, s, e). -/
theorem dense_q (x : Mha.SX.Idx → EReal) (W : Mha.SW.Idx → EReal) (b : Mha.SB.Idx → EReal)
    (n : Fin 4) (s : Fin 2048) (e : Fin 1024) :
    val_main_v3 (F := Ideal) x W b (ix3 n s e) = Mha.denseAt x W b n s e := by
  rw [val_main_v3_apply, val_main_v0_apply, val_main_v2_apply, val_main_v1_apply]
  have el : ∀ k : Fin 1024, lidx_main_v0 (ix3 n s e) k = ix3 n s k := fun k => funext fun a => by
    match a with | ⟨0, _⟩ => rfl | ⟨1, _⟩ => rfl | ⟨2, _⟩ => rfl
  have er : ∀ k : Fin 1024, ridx_main_v0 (ix3 n s e) k = ix2 e k := fun k => funext fun a => by
    match a with | ⟨0, _⟩ => rfl | ⟨1, _⟩ => rfl
  have eb : idx_main_v1 (idx_main_v2 (ix3 n s e)) = ix1 e := funext fun a => by
    match a with | ⟨0, _⟩ => rfl
  simp only [el, er, eb, Ideal.addf_def]
  rfl

/-- The same array with its features split into heads and the head axis moved in front of the positions: the entry
    (n, h, s, d) is the dense layer at (n, s, 64 h + d). -/
theorem proj_q (x : Mha.SX.Idx → EReal) (W : Mha.SW.Idx → EReal) (b : Mha.SB.Idx → EReal)
    (n : Fin 4) (h : Fin 16) (s : Fin 2048) (d : Fin 64) :
    val_main_v5 (F := Ideal) x W b (ix4 n h s d) = Mha.denseAt x W b n s (Mha.feat h d) := by
  rw [val_main_v5_apply, val_main_v4_apply]
  have e : idx_main_v4 (idx_main_v5 (ix4 n h s d)) = ix3 n s (Mha.feat h d) := split_heads_idx n h s d
  rw [e]
  exact dense_q x W b n s (Mha.feat h d)

/-- The key projection: the product with the transposed weight plus the bias, at (n, s, e). -/
theorem dense_k (x : Mha.SX.Idx → EReal) (W : Mha.SW.Idx → EReal) (b : Mha.SB.Idx → EReal)
    (n : Fin 4) (s : Fin 2048) (e : Fin 1024) :
    val_main_v9 (F := Ideal) x W b (ix3 n s e) = Mha.denseAt x W b n s e := by
  rw [val_main_v9_apply, val_main_v6_apply, val_main_v8_apply, val_main_v7_apply]
  have el : ∀ k : Fin 1024, lidx_main_v6 (ix3 n s e) k = ix3 n s k := fun k => funext fun a => by
    match a with | ⟨0, _⟩ => rfl | ⟨1, _⟩ => rfl | ⟨2, _⟩ => rfl
  have er : ∀ k : Fin 1024, ridx_main_v6 (ix3 n s e) k = ix2 e k := fun k => funext fun a => by
    match a with | ⟨0, _⟩ => rfl | ⟨1, _⟩ => rfl
  have eb : idx_main_v7 (idx_main_v8 (ix3 n s e)) = ix1 e := funext fun a => by
    match a with | ⟨0, _⟩ => rfl
  simp only [el, er, eb, Ideal.addf_def]
  rfl

/-- The same array with its features split into heads and the head axis moved in front of the positions: the entry
    (n, h, s, d) is the dense layer at (n, s, 64 h + d). -/
theorem proj_k (x : Mha.SX.Idx → EReal) (W : Mha.SW.Idx → EReal) (b : Mha.SB.Idx → EReal)
    (n : Fin 4) (h : Fin 16) (s : Fin 2048) (d : Fin 64) :
    val_main_v11 (F := Ideal) x W b (ix4 n h s d) = Mha.denseAt x W b n s (Mha.feat h d) := by
  rw [val_main_v11_apply, val_main_v10_apply]
  have e : idx_main_v10 (idx_main_v11 (ix4 n h s d)) = ix3 n s (Mha.feat h d) := split_heads_idx n h s d
  rw [e]
  exact dense_k x W b n s (Mha.feat h d)

/-- The value projection: the product with the transposed weight plus the bias, at (n, s, e). -/
theorem dense_v (x : Mha.SX.Idx → EReal) (W : Mha.SW.Idx → EReal) (b : Mha.SB.Idx → EReal)
    (n : Fin 4) (s : Fin 2048) (e : Fin 1024) :
    val_main_v15 (F := Ideal) x W b (ix3 n s e) = Mha.denseAt x W b n s e := by
  rw [val_main_v15_apply, val_main_v12_apply, val_main_v14_apply, val_main_v13_apply]
  have el : ∀ k : Fin 1024, lidx_main_v12 (ix3 n s e) k = ix3 n s k := fun k => funext fun a => by
    match a with | ⟨0, _⟩ => rfl | ⟨1, _⟩ => rfl | ⟨2, _⟩ => rfl
  have er : ∀ k : Fin 1024, ridx_main_v12 (ix3 n s e) k = ix2 e k := fun k => funext fun a => by
    match a with | ⟨0, _⟩ => rfl | ⟨1, _⟩ => rfl
  have eb : idx_main_v13 (idx_main_v14 (ix3 n s e)) = ix1 e := funext fun a => by
    match a with | ⟨0, _⟩ => rfl
  simp only [el, er, eb, Ideal.addf_def]
  rfl

/-- The same array with its features split into heads and the head axis moved in front of the positions: the entry
    (n, h, s, d) is the dense layer at (n, s, 64 h + d). -/
theorem proj_v (x : Mha.SX.Idx → EReal) (W : Mha.SW.Idx → EReal) (b : Mha.SB.Idx → EReal)
    (n : Fin 4) (h : Fin 16) (s : Fin 2048) (d : Fin 64) :
    val_main_v17 (F := Ideal) x W b (ix4 n h s d) = Mha.denseAt x W b n s (Mha.feat h d) := by
  rw [val_main_v17_apply, val_main_v16_apply]
  have e : idx_main_v16 (idx_main_v17 (ix4 n h s d)) = ix3 n s (Mha.feat h d) := split_heads_idx n h s d
  rw [e]
  exact dense_v x W b n s (Mha.feat h d)

end Cert.ReferenceIdeal.RefValue

end
-- ==== Proof.LibLastAxisMax.lean ====
/-
  A maximum over the last axis of a rank-four array, read at an index.

  The host's reduce with a maximum body over the last axis of an [a, b, c, m] array leaves one value per (p, q, r).
  The source indices that reduce to it are (p, q, r, k) for k below m, and a fold of max from the bottom element over
  them is their supremum. So when the initial value is minus infinity the result at (p, q, r) is the supremum over k
  of the source at (p, q, r, k), with no order of evaluation and no finiteness entering.
-/
import proofs.«152555_j79791902425338_2_alg».proof.Proof.LibMaxSup
import Idealize.ShloMosaic.Lib.ValueIdx

noncomputable section

namespace LastAxisMax

open Idealize.ShloMosaic Idealize.ShloMosaic.ValueIdx

/-- The source index over (p, q, r) with coordinate k on the reduced last axis is (p, q, r, k). -/
theorem lift_last4 {a b c m : ℕ} (h : (⟨4, ![a, b, c, m]⟩ : Shape).Reduces [3] ⟨3, ![a, b, c]⟩)
    (p : Fin a) (q : Fin b) (r : Fin c) (k : Fin m) : h.lift (ix3 p q r) k = ix4 p q r k := by
  funext ax
  apply Fin.ext
  refine (h.lift_val (ix3 p q r) k ax).trans ?_
  match ax with
  | ⟨0, _⟩ => rfl
  | ⟨1, _⟩ => rfl
  | ⟨2, _⟩ => rfl
  | ⟨3, _⟩ => rfl

/-- The host's reduce with a maximum body over the last axis, from an initial value that is minus infinity, at
    (p, q, r): the supremum of the entries (p, q, r, k). -/
theorem hostReduce_maximumf_last4 {a b c m : ℕ} {u : Shape} (x : FVec Ideal ⟨4, ![a, b, c, m]⟩ .f32)
    (init : u.Idx → Ideal .f32)
    (h' : (⟨4, ![a, b, c, m]⟩ : Shape).ReducesTo [3] ⟨3, ![a, b, c]⟩)
    (h : (⟨4, ![a, b, c, m]⟩ : Shape).Reduces [3] ⟨3, ![a, b, c]⟩)
    (hu : 0 < u.numel) (hinit : init (Shape.Idx.first hu) = (⊥ : EReal)) (p : Fin a) (q : Fin b) (r : Fin c) :
    Host.reduce (FloatOps.maximumf (F := Ideal) (φ := .f32)) x init h' hu (ix3 p q r)
      = ⨆ k : Fin m, x (ix4 p q r k) := by
  refine (Host.reduce_eq_fold_single (FloatOps.maximumf (F := Ideal) (φ := .f32)) x init h' h hu (ix3 p q r)).trans ?_
  rw [hinit]
  refine (MaxSup.fold_max_bot_univ (ι := Fin m) (x ∘ h.lift (ix3 p q r))).trans ?_
  exact iSup_congr fun k => congrArg x (lift_last4 h p q r k)

end LastAxisMax

end
-- ==== Proof.RefSoftmax.lean ====
/-
  The reference's attention weights, read at an index.

  With Q and K the projected queries and keys, the reference forms, for every batch n, head h and query position s,
  the logits (∑ d, Q(n, s, 64 h + d) · K(n, t, 64 h + d)) · (1/8) against every key position t, their maximum over
  t (a reduce from minus infinity, hence a supremum, joined once more with minus infinity, which changes nothing),
  the exponentials of the logits less that maximum, their sum over t (a float sum from the zero word), and the
  quotients. These are, entry by entry, the logit, top, expo and weight of the specification for the query row
  "lanes of head h at position s" against the key rows "lanes of head h at every position".
-/
import proofs.«152555_j79791902425338_2_alg».proof.Proof.RefProj
import proofs.«152555_j79791902425338_2_alg».proof.Proof.LibLastAxisMax

noncomputable section

namespace Cert.ReferenceIdeal.RefValue

open Cert.ReferenceIdeal Cert.ReferenceIdeal.Gen Cert.ReferenceIdeal.Read Idealize.ShloMosaic Idealize.ShloMosaic.ValueIdx

/-- Head h's lanes of position s of batch n of an activation array: one query row. -/
abbrev lanes (A : Mha.SX.Idx → EReal) (n : Fin 4) (h : Fin 16) (s : Fin 2048) : Fin 64 → EReal :=
  fun d => A (ix3 n s (Mha.feat h d))

/-- Head h's lanes of every position of batch n: the key rows, or the value rows. -/
abbrev rows (A : Mha.SX.Idx → EReal) (n : Fin 4) (h : Fin 16) : Fin 2048 → Fin 64 → EReal :=
  fun t d => A (ix3 n t (Mha.feat h d))

variable (x0 x1 : Mha.SX.Idx → EReal) (x3 : Mha.SW.Idx → EReal) (x4 : Mha.SB.Idx → EReal)
    (x5 : Mha.SW.Idx → EReal) (x6 : Mha.SB.Idx → EReal)

/-- The scaled logits: query row s of head h against key row t. -/
theorem logits_eq (n : Fin 4) (h : Fin 16) (s t : Fin 2048) :
    val_main_v20 (F := Ideal) x0 x1 x3 x4 x5 x6 (ix4 n h s t)
      = Mha.logit (lanes (Mha.dense x0 x3 x4) n h s) (rows (Mha.dense x1 x5 x6) n h) t := by
  rw [val_main_v20_apply, val_main_v18_apply, val_main_v19_apply, val_main_cst_apply]
  have el : ∀ k : Fin 64, lidx_main_v18 (ix4 n h s t) k = ix4 n h s k := fun k => funext fun a => by
    match a with | ⟨0, _⟩ => rfl | ⟨1, _⟩ => rfl | ⟨2, _⟩ => rfl | ⟨3, _⟩ => rfl
  have er : ∀ k : Fin 64, ridx_main_v18 (ix4 n h s t) k = ix4 n h t k := fun k => funext fun a => by
    match a with | ⟨0, _⟩ => rfl | ⟨1, _⟩ => rfl | ⟨2, _⟩ => rfl | ⟨3, _⟩ => rfl
  simp only [el, er, proj_q, proj_k, Ideal.mulf_def, Ideal.ofBits_def]
  rfl

/-- The row maximum of the logits is their supremum over the key positions. -/
theorem rowmax_eq (n : Fin 4) (h : Fin 16) (s : Fin 2048) :
    val_main_v23 (F := Ideal) x0 x1 x3 x4 x5 x6 (ix3 n h s)
      = Mha.top (lanes (Mha.dense x0 x3 x4) n h s) (rows (Mha.dense x1 x5 x6) n h) := by
  have hm : val_main_v21 (F := Ideal) x0 x1 x3 x4 x5 x6 (ix3 n h s)
      = ⨆ t : Fin 2048, val_main_v20 (F := Ideal) x0 x1 x3 x4 x5 x6 (ix4 n h s t) := by
    unfold val_main_v21
    generalize val_main_v20 (F := Ideal) x0 x1 x3 x4 x5 x6 = y
    exact LastAxisMax.hostReduce_maximumf_last4 y _ reducesTo_S4x16x2048x2048_S4x16x2048_d3 (by decide) h_S_
      ((val_main_cst_0_apply _).trans MaxSup.neg_inf_f32') n h s
  rw [val_main_v23_apply, val_main_v22_apply, val_main_cst_1_apply, hm, Ideal.maximumf_def, MaxSup.neg_inf_f32',
    max_bot_left]
  exact iSup_congr fun t => logits_eq x0 x1 x3 x4 x5 x6 n h s t

/-- The shifted exponentials. -/
theorem expo_eq (n : Fin 4) (h : Fin 16) (s t : Fin 2048) :
    val_main_v27 (F := Ideal) x0 x1 x3 x4 x5 x6 (ix4 n h s t)
      = Mha.expo (lanes (Mha.dense x0 x3 x4) n h s) (rows (Mha.dense x1 x5 x6) n h) t := by
  rw [val_main_v27_apply, val_main_v26_apply, val_main_v25_apply, val_main_v24_apply]
  have e : idx_main_v24 (idx_main_v25 (ix4 n h s t)) = ix3 n h s := funext fun a => by
    match a with | ⟨0, _⟩ => rfl | ⟨1, _⟩ => rfl | ⟨2, _⟩ => rfl
  rw [e, rowmax_eq, logits_eq, Ideal.hostUnary_exp_def, Ideal.subf_def]
  rfl

/-- The row sum of the exponentials. -/
theorem rowsum_eq (n : Fin 4) (h : Fin 16) (s : Fin 2048) :
    val_main_v28 (F := Ideal) x0 x1 x3 x4 x5 x6 (ix3 n h s)
      = ∑ t : Fin 2048, Mha.expo (lanes (Mha.dense x0 x3 x4) n h s) (rows (Mha.dense x1 x5 x6) n h) t := by
  rw [val_main_v28_apply, val_main_cst_2_apply, Ideal.ofBits_def, Ideal.ofBits_zero_f32, zero_add]
  refine Finset.sum_congr rfl fun t _ => ?_
  have e : idx_main_v28 (ix3 n h s) t = ix4 n h s t := funext fun a => by
    match a with | ⟨0, _⟩ => rfl | ⟨1, _⟩ => rfl | ⟨2, _⟩ => rfl | ⟨3, _⟩ => rfl
  rw [e, expo_eq]

/-- The softmax weights. -/
theorem weight_eq (n : Fin 4) (h : Fin 16) (s t : Fin 2048) :
    val_main_v31 (F := Ideal) x0 x1 x3 x4 x5 x6 (ix4 n h s t)
      = Mha.weight (lanes (Mha.dense x0 x3 x4) n h s) (rows (Mha.dense x1 x5 x6) n h) t := by
  rw [val_main_v31_apply, val_main_v30_apply, val_main_v29_apply]
  have e : idx_main_v29 (idx_main_v30 (ix4 n h s t)) = ix3 n h s := funext fun a => by
    match a with | ⟨0, _⟩ => rfl | ⟨1, _⟩ => rfl | ⟨2, _⟩ => rfl
  rw [e, rowsum_eq, expo_eq, Ideal.hostDivf_def]
  rfl

end Cert.ReferenceIdeal.RefValue

end
-- ==== Proof.RefSide.lean ====
/-
  The reference computes multi-head attention.

  After the attention weights, the reference multiplies them with the value rows of the same head (a sum over the key
  positions), transposes the head axis back behind the positions, merges the 16 heads of 64 lanes into 1024 features
  (entry (n, s, e) comes from head e / 64, lane e % 64, because a reshape keeps the row-major position), and applies the
  output projection. Entry by entry this is the specification's attendRow, heads and dense, so the whole reference is
  the specification's mha of its eleven arguments. Nothing here needs the entries to be finite: both sides are the same
  expression at every index.
-/
import proofs.«152555_j79791902425338_2_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx

/-- Undoing the reshape and the transpose on an index: (n, s, e) of the merged [4,2048,1024] array is
    (n, e / 64, s, e % 64) of the per-head [4,16,2048,64] one. -/
theorem merge_heads_idx (n : Fin 4) (s : Fin 2048) (e : Fin 1024) :
    idx_main_v33 (idx_main_v34 (ix3 n s e)) = ix4 n (Mha.headOf e) s (Mha.laneOf e) := by
  funext a
  apply Fin.ext
  have hn := n.isLt
  have hs := s.isLt
  have he := e.isLt
  match a with
  | ⟨0, _⟩ => show ((n.val * 2048 + s.val) * 1024 + e.val) / 2097152 = n.val; omega
  | ⟨1, _⟩ => show ((n.val * 2048 + s.val) * 1024 + e.val) / 64 % 16 = e.val / 64; omega
  | ⟨2, _⟩ => show ((n.val * 2048 + s.val) * 1024 + e.val) / 1024 % 2048 = s.val; omega
  | ⟨3, _⟩ => show ((n.val * 2048 + s.val) * 1024 + e.val) % 64 = e.val % 64; omega

variable (x0 x1 x2 : Mha.SX.Idx → EReal) (x3 : Mha.SW.Idx → EReal) (x4 : Mha.SB.Idx → EReal)
    (x5 : Mha.SW.Idx → EReal) (x6 : Mha.SB.Idx → EReal) (x7 : Mha.SW.Idx → EReal) (x8 : Mha.SB.Idx → EReal)

/-- The weights times the value rows: head h of batch n, query position s, lane d. -/
theorem attend_eq (n : Fin 4) (h : Fin 16) (s : Fin 2048) (d : Fin 64) :
    val_main_v32 (F := Ideal) x0 x1 x2 x3 x4 x5 x6 x7 x8 (ix4 n h s d)
      = Mha.headsAt (Mha.dense x0 x3 x4) (Mha.dense x1 x5 x6) (Mha.dense x2 x7 x8) n s h d := by
  rw [val_main_v32_apply]
  have el : ∀ k : Fin 2048, lidx_main_v32 (ix4 n h s d) k = ix4 n h s k := fun k => funext fun a => by
    match a with | ⟨0, _⟩ => rfl | ⟨1, _⟩ => rfl | ⟨2, _⟩ => rfl | ⟨3, _⟩ => rfl
  have er : ∀ k : Fin 2048, ridx_main_v32 (ix4 n h s d) k = ix4 n h k d := fun k => funext fun a => by
    match a with | ⟨0, _⟩ => rfl | ⟨1, _⟩ => rfl | ⟨2, _⟩ => rfl | ⟨3, _⟩ => rfl
  simp only [el, er, weight_eq, proj_v]
  rfl

/-- The heads side by side in the feature axis. -/
theorem heads_eq (n : Fin 4) (s : Fin 2048) (e : Fin 1024) :
    val_main_v34 (F := Ideal) x0 x1 x2 x3 x4 x5 x6 x7 x8 (ix3 n s e)
      = Mha.heads (Mha.dense x0 x3 x4) (Mha.dense x1 x5 x6) (Mha.dense x2 x7 x8) (ix3 n s e) := by
  rw [val_main_v34_apply, val_main_v33_apply, merge_heads_idx, attend_eq]
  rfl

/-- The reference, as a function of its eleven arguments, is multi-head attention. -/
theorem ref_is_mha (x9 : Mha.SW.Idx → EReal) (x10 : Mha.SB.Idx → EReal) :
    val_main_v38 (F := Ideal) x0 x1 x2 x3 x4 x5 x6 x7 x8 x9 x10 = Mha.mha x0 x1 x2 x3 x4 x5 x6 x7 x8 x9 x10 := by
  funext i
  obtain ⟨n, s, e, rfl⟩ : ∃ (n : Fin 4) (s : Fin 2048) (e : Fin 1024), i = ix3 n s e := ⟨i 0, i 1, i 2, eq_ix3 i⟩
  rw [val_main_v38_apply, val_main_v35_apply, val_main_v37_apply, val_main_v36_apply]
  have el : ∀ k : Fin 1024, lidx_main_v35 (ix3 n s e) k = ix3 n s k := fun k => funext fun a => by
    match a with | ⟨0, _⟩ => rfl | ⟨1, _⟩ => rfl | ⟨2, _⟩ => rfl
  have er : ∀ k : Fin 1024, ridx_main_v35 (ix3 n s e) k = ix2 e k := fun k => funext fun a => by
    match a with | ⟨0, _⟩ => rfl | ⟨1, _⟩ => rfl
  have eb : idx_main_v36 (idx_main_v37 (ix3 n s e)) = ix1 e := funext fun a => by
    match a with | ⟨0, _⟩ => rfl
  simp only [el, er, eb, heads_eq, Ideal.addf_def]
  rfl

end Cert.ReferenceIdeal.RefValue

end
-- ==== Proof.Claims.lean ====
/-
  The five claims.

  Frames: the two kernel programs' are generated; the reference's is its generated run with the result dropped. The
  idealization rewrote nothing, so there is nothing to preserve. The algebraic claim: at the ideal values the kernel's
  result array is multi-head attention Mha.mha of its argument arrays (its run with the result named, the regions'
  output arrays, and the layout of the flattened dense layers), and so is the reference's (its generated run, read
  operation by operation); the two memories agree on the arguments.
-/
import proofs.«152555_j79791902425338_2_alg».proof.Defs
import proofs.«152555_j79791902425338_2_alg».proof.Proof.Gen.Pre_finite_inputs
import proofs.«152555_j79791902425338_2_alg».proof.Proof.Gen.Kernel
import proofs.«152555_j79791902425338_2_alg».proof.Proof.Gen.KernelIdeal
import proofs.«152555_j79791902425338_2_alg».proof.Proof.Gen.ReferenceIdeal
import proofs.«152555_j79791902425338_2_alg».proof.Proof.Gen.Kernel.Frame
import proofs.«152555_j79791902425338_2_alg».proof.Proof.Gen.KernelIdeal.Frame
import proofs.«152555_j79791902425338_2_alg».proof.Proof.Gen.ReferenceIdeal.Run
import proofs.«152555_j79791902425338_2_alg».proof.Proof.Gen.ReferenceIdeal.Read
import proofs.«152555_j79791902425338_2_alg».proof.Proof.KRun
import proofs.«152555_j79791902425338_2_alg».proof.Proof.KValue
import proofs.«152555_j79791902425338_2_alg».proof.Proof.RefSide

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at Mha.mha of the argument arrays. -/
theorem algebraic : Cert.algebraic_KernelIdeal_ReferenceIdeal := by
  intro m ρ m' ρ' _ hagree
  refine ⟨fun c => Mha.mha
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.KValue.result_is_mha m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v38_eq, a0, a1, a2, a3, a4, a5, a6, a7, a8, a9, a10]
    exact Cert.ReferenceIdeal.RefValue.ref_is_mha _ _ _ _ _ _ _ _ _ _ _

end Cert.Proof.Claims

end
-- ==== Proof.lean ====
/- Multi-head attention (batch 4, 2048 positions, 1024 features as 16 heads of 64 lanes) with its query, key, value and
   output projections, as a kernel of five pipelined regions against the plain array program.

   At the ideal values both programs end with their result array at Mha.mha of the eleven argument arrays
   (Proof/Spec.lean): project queries, keys and values by x · Wᵀ + b; per head, weigh each value row by the softmax of the
   scaled logits of the query row against the key rows; lay the heads side by side; project once more. The kernel tiles
   the projections by rows and the attention by (batch, pair of heads, block of query rows), and keeps its
   intermediates in a narrower float format, which is the identity at the ideal values; the reference splits the feature
   axis into heads by a reshape and a transpose. Neither changes any entry: the two sides are the same sums, suprema,
   exponentials and quotients of the same entries, so no finiteness of the inputs is used.

   The frames of the two kernel programs are the generated ones; the reference's is its generated run. The idealization
   rewrote nothing, so the preservation claim is trivial. -/
import proofs.«152555_j79791902425338_2_alg».proof.Defs
import proofs.«152555_j79791902425338_2_alg».proof.Proof.Gen.Kernel
import proofs.«152555_j79791902425338_2_alg».proof.Proof.Gen.Kernel.Skeleton
import proofs.«152555_j79791902425338_2_alg».proof.Proof.Gen.Kernel.Launch
import proofs.«152555_j79791902425338_2_alg».proof.Proof.Gen.Kernel.Points
import proofs.«152555_j79791902425338_2_alg».proof.Proof.Gen.Kernel.Frame
import proofs.«152555_j79791902425338_2_alg».proof.Proof.Gen.KernelIdeal
import proofs.«152555_j79791902425338_2_alg».proof.Proof.Gen.KernelIdeal.Skeleton
import proofs.«152555_j79791902425338_2_alg».proof.Proof.Gen.KernelIdeal.Launch
import proofs.«152555_j79791902425338_2_alg».proof.Proof.Gen.KernelIdeal.Points
import proofs.«152555_j79791902425338_2_alg».proof.Proof.Gen.KernelIdeal.Frame
import proofs.«152555_j79791902425338_2_alg».proof.Proof.Gen.ReferenceIdeal
import proofs.«152555_j79791902425338_2_alg».proof.Proof.Gen.ReferenceIdeal.Run
import proofs.«152555_j79791902425338_2_alg».proof.Proof.Gen.ReferenceIdeal.Read
import proofs.«152555_j79791902425338_2_alg».proof.Proof.Gen.Pre_finite_inputs
import proofs.«152555_j79791902425338_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
